-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 110
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x128, .f32⟩
  | .hbm, ⟨98, _⟩ => ⟨S1700000x1, .f32⟩
  | .hbm, ⟨99, _⟩ => ⟨S1700000x128, .f32⟩
  | .hbm, ⟨100, _⟩ => ⟨S1700000x128, .f32⟩
  | .hbm, ⟨101, _⟩ => ⟨S_, .f32⟩
  | .hbm, ⟨102, _⟩ => ⟨S100000x128, .f32⟩
  | .hbm, ⟨103, _⟩ => ⟨S1700000x1, .i32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x64, .f32⟩
  | .hbm, ⟨108, _⟩ => ⟨S1x64, .f32⟩
  | .hbm, ⟨109, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S100000x64.size a
  hwx7_2 : ∀ i : grid7.Coords, EltTy.bits .f32 = 32 ∨ (Rect.block (s := S100000x64) S5000x64.size (cc7_transform_2 i) (hinb7_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v78) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v79) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v80) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S100000x128, .f32⟩
  | .hbm, ⟨95, _⟩ => ⟨S100000x128, .f32⟩
  | .hbm, ⟨96, _⟩ => ⟨S100000x128, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x128, .f32⟩
  | .hbm, ⟨106, _⟩ => ⟨S1700000x1, .f32⟩
  | .hbm, ⟨107, _⟩ => ⟨S1700000x128, .f32⟩
  | .hbm, ⟨108, _⟩ => ⟨S1700000x128, .f32⟩
  | .hbm, ⟨109, _⟩ => ⟨S_, .f32⟩
  | .hbm, ⟨110, _⟩ => ⟨S100000x128, .f32⟩
  | .hbm, ⟨111, _⟩ => ⟨S1700000x1, .i32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | .hbm, ⟨116, _⟩ => ⟨S_, .f32⟩
  | .hbm, ⟨117, _⟩ => ⟨S100000x128, .f32⟩
  | .hbm, ⟨118, _⟩ => ⟨S100000x128, .f32⟩
  | .hbm, ⟨119, _⟩ => ⟨S100000x64, .f32⟩
  | .hbm, ⟨120, _⟩ => ⟨S1x64, .f32⟩
  | .hbm, ⟨121, _⟩ => ⟨S100000x64, .f32⟩
  | .hbm, ⟨122, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel's run with its result named.  Every weakly fair execution of the program — eight pipelined
  regions among stretches of host operations — terminates without a fault, and in the final memory every buffer that
  is not scoped holds what the fold of the segments leaves in it: in particular the result buffer holds the last
  region's output array as that fold has it, and the ten arguments hold what they were launched with.
-/
import proofs.«116687_j74337293959431_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the fold's contents, the arguments as launched. -/
theorem run_result : θ_run defs (onTc (τ := τ) (main (F := F))) ⟨m, fun _ => 0, ρ⟩ (fun r => ∀ c : Dev nD,
      r.2.mem ((c.tc : Thread nD τ).loc main_v80) = W15 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v80 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KernelIdeal.KRun

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.LibLayout2.lean ====
/-
  A vector laid out as a row or a column and broadcast to a matrix, read at an index written by coordinates, for any
  element type and any extents.  A vector `[b]` made the row `[1, b]` (the same elements, now one row) and broadcast
  down `a` rows ([1, b] → [a, b]: every row a copy of the one row) reads, at `(i, j)`, the vector at `j`; a vector
  `[a]` made the column `[a, 1]` and broadcast along `b` columns reads, at `(i, j)`, the vector at `i`.  A reshape of
  a tensor keeps the elements in row-major order under the new shape, which is what a shape cast does, so these are
  also the readings of a vector reshaped into a row or a column and then broadcast.  Each is two of the library's
  read-at-an-index lemmas, one after the other.
-/
import Idealize.ShloMosaic.Lib.Pipeline.Value
import Idealize.ShloMosaic.Lib.ValueIdx
import Idealize.ShloMosaic.Lib.ValueLayout

open Idealize.ShloMosaic Idealize.ShloMosaic.ValueIdx

namespace Layout2

variable {α : Type}

/-- A vector `[b]` made a row and broadcast down `a` rows reads, at `(i, j)`, the vector at `j`. -/
theorem broadcastTo_row_of_vector_apply {a b : ℕ} (x : (⟨1, ![b]⟩ : Shape).Idx → α)
    (hc : (⟨1, ![b]⟩ : Shape).ShapeCasts ⟨2, ![1, b]⟩) (hb : (⟨2, ![1, b]⟩ : Shape).Broadcasts ⟨2, ![a, b]⟩)
    (i : Fin a) (j : Fin b) :
    broadcastTo ⟨2, ![a, b]⟩ (shapeCast ⟨2, ![1, b]⟩ x hc) hb (ix2 i j) = x (ix1 j) := by
  rw [broadcastTo_1b_ab_apply, shapeCast_a_1a_apply]

/-- A vector `[a]` cast to the column `[a, 1]` reads, at `(i, u)`, the operand at `i`, whatever the unit
    coordinate `u`. -/
theorem shapeCast_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_col_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `[a]` made a column and broadcast along `b` columns reads, at `(i, j)`, the vector at `i`. -/
theorem broadcastTo_col_of_vector_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_col_apply, shapeCast_col_apply]

end Layout2
-- ==== Proof.Bodies.lean ====
/-
  The eight kernel bodies, each read at an index of its output block, at the ideal values.

  Four bodies are matrix products: a block of 5000 rows of the left matrix times the whole right matrix, both
  rounded to bf16 on the way in (a change of float format is the identity on the extended reals), accumulated into
  zero.  At row `r` and column `c` of the block the result is the sum over `k` of (row `r`, entry `k`) times
  (entry `k`, column `c`).  Four bodies add a bias row to a block: at `(r, c)` the block's entry plus the bias at
  column `c`; three of them then take the maximum with zero.
-/
import proofs.«116687_j74337293959431_1_alg».proof.Proof.Gen.KernelIdeal.Skeleton
import proofs.«116687_j74337293959431_1_alg».proof.Proof.LibDotRows
import proofs.«116687_j74337293959431_1_alg».proof.Proof.LibLayout2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Bodies

open Idealize.ShloMosaic Idealize.ShloMosaic.ValueIdx Cert.KernelIdeal Cert.KernelIdeal.Gen

/-! ## The matrix products -/

/-- A 5000-row block times a 128 x 128 matrix, into zero, at `(r, c)`. -/
theorem prod128_apply (a : FVec Ideal S5000x128 .f32) (w : FVec Ideal S128x128 .f32) (r : Fin 5000) (c : Fin 128) :
    matmul (F := Ideal) dot_S5000x128_S128x128_S5000x128_1_0_0_1_n_n none a w (constant (F := Ideal) S5000x128 .f32 0x00000000#32) (ix2 r c)
      = ∑ k : Fin 128, a (ix2 r k) * w (ix2 k c) :=
  matmul_zero_rows dot_S5000x128_S128x128_S5000x128_1_0_0_1_n_n none rfl rfl (fun _ _ => rfl) (fun _ _ => rfl)
    (fun _ _ => rfl) (fun _ _ => rfl) a w r c

/-- A 5000-row block times a 128 x 64 matrix, into zero, at `(r, c)`. -/
theorem prod64_apply (a : FVec Ideal S5000x128 .f32) (w : FVec Ideal S128x64 .f32) (r : Fin 5000) (c : Fin 64) :
    matmul (F := Ideal) dot_S5000x128_S128x64_S5000x64_1_0_0_1_n_n none a w (constant (F := Ideal) S5000x64 .f32 0x00000000#32) (ix2 r c)
      = ∑ k : Fin 128, a (ix2 r k) * w (ix2 k c) :=
  matmul_zero_rows dot_S5000x128_S128x64_S5000x64_1_0_0_1_n_n none rfl rfl (fun _ _ => rfl) (fun _ _ => rfl)
    (fun _ _ => rfl) (fun _ _ => rfl) a w r c

/-- The first product's body (the block is loaded and rounded, nothing else). -/
theorem pay0_apply (a : Vec Ideal S5000x128 .f32) (w : Vec Ideal S128x128 .f32) (r : Fin 5000) (c : Fin 128) :
    k0_pay1 (F := Ideal) a w (ix2 r c) = ∑ k : Fin 128, a (ix2 r k) * w (ix2 k c) := by
  unfold k0_pay1
  exact prod128_apply a w r c

/-- The second and third products' bodies: the block first passes through a cast to its own shape. -/
theorem pay2_apply (a : Vec Ideal S5000x128 .f32) (w : Vec Ideal S128x128 .f32) (r : Fin 5000) (c : Fin 128) :
    k2_pay1 (F := Ideal) a w (ix2 r c) = ∑ k : Fin 128, a (ix2 r k) * w (ix2 k c) := by
  unfold k2_pay1
  rw [shapeCast_self]
  exact prod128_apply a w r c

theorem pay4_apply (a : Vec Ideal S5000x128 .f32) (w : Vec Ideal S128x128 .f32) (r : Fin 5000) (c : Fin 128) :
    k4_pay1 (F := Ideal) a w (ix2 r c) = ∑ k : Fin 128, a (ix2 r k) * w (ix2 k c) := by
  unfold k4_pay1
  rw [shapeCast_self]
  exact prod128_apply a w r c

/-- The last product's body, into 64 columns. -/
theorem pay6_apply (a : Vec Ideal S5000x128 .f32) (w : Vec Ideal S128x64 .f32) (r : Fin 5000) (c : Fin 64) :
    k6_pay1 (F := Ideal) a w (ix2 r c) = ∑ k : Fin 128, a (ix2 r k) * w (ix2 k c) := by
  unfold k6_pay1
  rw [shapeCast_self]
  exact prod64_apply a w r c

/-! ## The bias rows -/

/-- A bias row `[1, 128]` broadcast down 5000 rows, at `(r, c)`: the row's entry at column `c`. -/
theorem biasrow128_apply (b : Vec Ideal S1x128 .f32) (r : Fin 5000) (c : Fin 128) :
    broadcastTo S5000x128 (shapeCast S1x128 b shapeCasts_S1x128_S1x128) broadcasts_S1x128_S5000x128 (ix2 r c)
      = b (ix2 (0 : Fin 1) c) := by
  rw [shapeCast_self]
  exact broadcastTo_1b_ab_apply b broadcasts_S1x128_S5000x128 r c

theorem biasrow64_apply (b : Vec Ideal S1x64 .f32) (r : Fin 5000) (c : Fin 64) :
    broadcastTo S5000x64 (shapeCast S1x64 b shapeCasts_S1x64_S1x64) broadcasts_S1x64_S5000x64 (ix2 r c)
      = b (ix2 (0 : Fin 1) c) := by
  rw [shapeCast_self]
  exact broadcastTo_1b_ab_apply b broadcasts_S1x64_S5000x64 r c

/-- Bias then the maximum with zero, at `(r, c)`. -/
theorem pay1_apply (x : Vec Ideal S5000x128 .f32) (b : Vec Ideal S1x128 .f32) (r : Fin 5000) (c : Fin 128) :
    k1_pay1 (F := Ideal) x b (ix2 r c) = max (x (ix2 r c) + b (ix2 (0 : Fin 1) c)) (Ideal.ofBits .f32 0x00000000#32) := by
  unfold k1_pay1
  rw [shapeCast_self]
  show max (x (ix2 r c) + broadcastTo S5000x128 (shapeCast S1x128 b shapeCasts_S1x128_S1x128) broadcasts_S1x128_S5000x128 (ix2 r c)) _ = _
  rw [biasrow128_apply]
  rfl

theorem pay3_apply (x : Vec Ideal S5000x128 .f32) (b : Vec Ideal S1x128 .f32) (r : Fin 5000) (c : Fin 128) :
    k3_pay1 (F := Ideal) x b (ix2 r c) = max (x (ix2 r c) + b (ix2 (0 : Fin 1) c)) (Ideal.ofBits .f32 0x00000000#32) := by
  unfold k3_pay1
  rw [shapeCast_self]
  show max (x (ix2 r c) + broadcastTo S5000x128 (shapeCast S1x128 b shapeCasts_S1x128_S1x128) broadcasts_S1x128_S5000x128 (ix2 r c)) _ = _
  rw [biasrow128_apply]
  rfl

theorem pay5_apply (x : Vec Ideal S5000x128 .f32) (b : Vec Ideal S1x128 .f32) (r : Fin 5000) (c : Fin 128) :
    k5_pay1 (F := Ideal) x b (ix2 r c) = max (x (ix2 r c) + b (ix2 (0 : Fin 1) c)) (Ideal.ofBits .f32 0x00000000#32) := by
  unfold k5_pay1
  rw [shapeCast_self]
  show max (x (ix2 r c) + broadcastTo S5000x128 (shapeCast S1x128 b shapeCasts_S1x128_S1x128) broadcasts_S1x128_S5000x128 (ix2 r c)) _ = _
  rw [biasrow128_apply]
  rfl

/-- Bias alone, into 64 columns, at `(r, c)`. -/
theorem pay7_apply (x : Vec Ideal S5000x64 .f32) (b : Vec Ideal S1x64 .f32) (r : Fin 5000) (c : Fin 64) :
    k7_pay1 (F := Ideal) x b (ix2 r c) = x (ix2 r c) + b (ix2 (0 : Fin 1) c) := by
  unfold k7_pay1
  rw [shapeCast_self]
  show x (ix2 r c) + broadcastTo S5000x64 (shapeCast S1x64 b shapeCasts_S1x64_S1x64) broadcasts_S1x64_S5000x64 (ix2 r c) = _
  rw [biasrow64_apply]

end Cert.KernelIdeal.Bodies

end
-- ==== Proof.Spec.lean ====
/-
  The whole-array functions the eight regions compute, over literal shapes, at the ideal values.

  `prod128 A W` is the matrix product of a 100000 x 128 matrix by a 128 x 128 matrix: at `(p, q)` the sum over `k` of
  `A (p, k) * W (k, q)`; `prod64` the same into 64 columns.  `biasRelu X b` adds to every row of `X` the row `b`
  (given as a 1 x 128 matrix) and takes the maximum with zero; `bias64` adds a 1 x 64 row to every row.
-/
import Idealize.ShloMosaic.PureOps.Ideal
import Idealize.ShloMosaic.Lib.ValueIdx

noncomputable section

open scoped BigOperators

namespace Cert.Spec

open Idealize.ShloMosaic Idealize.ShloMosaic.ValueIdx

abbrev M100000x128 : Shape := ⟨2, ![100000, 128]⟩
abbrev M100000x64 : Shape := ⟨2, ![100000, 64]⟩
abbrev M128x128 : Shape := ⟨2, ![128, 128]⟩
abbrev M128x64 : Shape := ⟨2, ![128, 64]⟩
abbrev M1x128 : Shape := ⟨2, ![1, 128]⟩
abbrev M1x64 : Shape := ⟨2, ![1, 64]⟩

/-- The row and the column of an index of a 100000 x 128 matrix, and of a 100000 x 64 matrix. -/
abbrev rowOf128 (i : M100000x128.Idx) : Fin 100000 := i 0
abbrev colOf128 (i : M100000x128.Idx) : Fin 128 := i 1
abbrev rowOf64 (i : M100000x64.Idx) : Fin 100000 := i 0
abbrev colOf64 (i : M100000x64.Idx) : Fin 64 := i 1

/-- The product of a 100000 x 128 matrix by a 128 x 128 matrix. -/
def prod128 (A : M100000x128.Idx → Ideal .f32) (W : M128x128.Idx → Ideal .f32) : M100000x128.Idx → Ideal .f32 :=
  fun i => ∑ k : Fin 128, A (ix2 (rowOf128 i) k) * W (ix2 k (colOf128 i))

theorem prod128_apply (A : M100000x128.Idx → Ideal .f32) (W : M128x128.Idx → Ideal .f32) (i : M100000x128.Idx) :
    prod128 A W i = ∑ k : Fin 128, A (ix2 (rowOf128 i) k) * W (ix2 k (colOf128 i)) := rfl

/-- The product of a 100000 x 128 matrix by a 128 x 64 matrix. -/
def prod64 (A : M100000x128.Idx → Ideal .f32) (W : M128x64.Idx → Ideal .f32) : M100000x64.Idx → Ideal .f32 :=
  fun i => ∑ k : Fin 128, A (ix2 (rowOf64 i) k) * W (ix2 k (colOf64 i))

theorem prod64_apply (A : M100000x128.Idx → Ideal .f32) (W : M128x64.Idx → Ideal .f32) (i : M100000x64.Idx) :
    prod64 A W i = ∑ k : Fin 128, A (ix2 (rowOf64 i) k) * W (ix2 k (colOf64 i)) := rfl

/-- A bias row added to every row, then the maximum with zero (the zero as the all-zero word's value). -/
def biasRelu (X : M100000x128.Idx → Ideal .f32) (b : M1x128.Idx → Ideal .f32) : M100000x128.Idx → Ideal .f32 :=
  fun i => max (X i + b (ix2 (0 : Fin 1) (colOf128 i))) (Ideal.ofBits .f32 0x00000000#32)

theorem biasRelu_apply (X : M100000x128.Idx → Ideal .f32) (b : M1x128.Idx → Ideal .f32) (i : M100000x128.Idx) :
    biasRelu X b i = max (X i + b (ix2 (0 : Fin 1) (colOf128 i))) (Ideal.ofBits .f32 0x00000000#32) := rfl

/-- A bias row added to every row of a 100000 x 64 matrix. -/
def bias64 (X : M100000x64.Idx → Ideal .f32) (b : M1x64.Idx → Ideal .f32) : M100000x64.Idx → Ideal .f32 :=
  fun i => X i + b (ix2 (0 : Fin 1) (colOf64 i))

theorem bias64_apply (X : M100000x64.Idx → Ideal .f32) (b : M1x64.Idx → Ideal .f32) (i : M100000x64.Idx) :
    bias64 X b i = X i + b (ix2 (0 : Fin 1) (colOf64 i)) := rfl

end Cert.Spec

end
-- ==== Proof.Region0.lean ====
/-
  Region 0: the first matrix product.  The 100000 rows of the left matrix are cut into 20 blocks of 5000 rows; grid
  point `t` multiplies block `t` by the whole 128 x 128 right matrix and writes block `t` of the result.  So the
  result array, once all 20 points have written back, is the whole product: at `(p, q)` the sum over `k` of
  the left matrix at `(p, k)` times the right matrix at `(k, q)`.
-/
import proofs.«116687_j74337293959431_1_alg».proof.Proof.Gen.KernelIdeal.Frame
import proofs.«116687_j74337293959431_1_alg».proof.Proof.Bodies
import proofs.«116687_j74337293959431_1_alg».proof.Proof.Spec

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left matrix's and the result's block of point `t` is block `t` of rows;
    the right matrix has one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed_eq (c : Dev nD) (t : Fin cfg0.N) :
    (dat0 (F := Ideal) V c).flushed 2 t
      = ((cfg0.win 2).blk t).view.read (Elt Ideal) (prod128 (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx_facts t
  funext j
  obtain ⟨r, q, rfl⟩ : ∃ (r : Fin 5000) (q : Fin 128), j = ix2 r q := ⟨j 0, j 1, eq_ix2 j⟩
  show k0_pay1 (iblk0 V c 0 t) (iblk0 V c 1 t) (ix2 r q)
    = prod128 (V c main_arg0) (V c main_arg2) (((cfg0.win 2).blk t).view.emb (ix2 r q))
  refine (Bodies.pay0_apply (iblk0 V c 0 t) (iblk0 V c 1 t) r q).trans ?_
  refine (Finset.sum_congr rfl fun k _ => ?_).trans (prod128_apply _ _ _).symm
  have hA : iblk0 V c 0 t (ix2 r k)
      = V c main_arg0 (ix2 (rowOf128 (((cfg0.win 2).blk t).view.emb (ix2 r q))) k) := by
    show V c main_arg0 (((cfg0.win 0).blk t).view.emb (ix2 r k)) = _
    refine congrArg (V c main_arg0) ?_
    funext a; apply Fin.ext
    match a with
    | ⟨0, _⟩ => show win0_0.index t (0 : Fin 2) * 5000 + 1 * r.val = win0_2.index t (0 : Fin 2) * 5000 + 1 * r.val; omega
    | ⟨1, _⟩ => show win0_0.index t (1 : Fin 2) * 128 + 1 * k.val = k.val; omega
  have hW : iblk0 V c 1 t (ix2 k q)
      = V c main_arg2 (ix2 k (colOf128 (((cfg0.win 2).blk t).view.emb (ix2 r q)))) := by
    show V c main_arg2 (((cfg0.win 1).blk t).view.emb (ix2 k q)) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hA, hW]

/-- An index of the result is in point `t`'s block iff its row is among that block's 5000 rows. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every block of rows is some point's. -/
theorem idx_onto : ∀ b : Fin 20, ∃ t : Fin cfg0.N, win0_2.index t = ![b.val, 0] :=
  (by decide +kernel : ∀ b : Fin 20, ∃ t : Fin grid0.N, win0_2.index t = ![b.val, 0])

/-- The 20 blocks cover the result. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region is the whole product of the arrays the region finds. -/
theorem final (c : Dev nD) :
    (dat0 (F := Ideal) V c).arrAt 2 cfg0.N = prod128 (V c main_arg0) (V c main_arg2) :=
  (dat0 V c).arrAt_eq_of_cover 2 (prod128 (V c main_arg0) (V c main_arg2)) (fun t _ => flushed_eq V c t) (cover)

end Cert.KernelIdeal.Region0

end
-- ==== Proof.Region1.lean ====
/-
  Region 1: the first bias and maximum with zero.  Grid point `t` adds the one bias row to block `t` (5000 rows) of the input and writes block `t` of the result, so once all 20 points have written back the result array is the whole-array function: at `(p, q)` the input at `(p, q)` plus the bias at column `q`, then the maximum with zero.
-/
import proofs.«116687_j74337293959431_1_alg».proof.Proof.Gen.KernelIdeal.Frame
import proofs.«116687_j74337293959431_1_alg».proof.Proof.Bodies
import proofs.«116687_j74337293959431_1_alg».proof.Proof.Spec

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input's and the result's block of point `t` is block `t` of rows;
    the bias row has one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function of the arrays the region finds. -/
theorem flushed_eq (c : Dev nD) (t : Fin cfg1.N) :
    (dat1 (F := Ideal) V c).flushed 2 t
      = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e00, e01, e10, e11, e20, e21⟩ := idx_facts t
  funext j
  obtain ⟨r, q, rfl⟩ : ∃ (r : Fin 5000) (q : Fin 128), j = ix2 r q := ⟨j 0, j 1, eq_ix2 j⟩
  show k1_pay1 (iblk1 V c 0 t) (iblk1 V c 1 t) (ix2 r q)
    = biasRelu (V c main_v43) (V c main_v44) (((cfg1.win 2).blk t).view.emb (ix2 r q))
  refine (Bodies.pay1_apply (iblk1 V c 0 t) (iblk1 V c 1 t) r q).trans ?_
  refine Eq.trans ?_ (biasRelu_apply _ _ _).symm
  have hX : iblk1 V c 0 t (ix2 r q) = V c main_v43 (((cfg1.win 2).blk t).view.emb (ix2 r q)) := by
    show V c main_v43 (((cfg1.win 0).blk t).view.emb (ix2 r q)) = _
    refine congrArg (V c main_v43) ?_
    funext a; apply Fin.ext
    match a with
    | ⟨0, _⟩ => show win1_0.index t (0 : Fin 2) * 5000 + 1 * r.val = win1_2.index t (0 : Fin 2) * 5000 + 1 * r.val; omega
    | ⟨1, _⟩ => show win1_0.index t (1 : Fin 2) * 128 + 1 * q.val = win1_2.index t (1 : Fin 2) * 128 + 1 * q.val; omega
  have hB : iblk1 V c 1 t (ix2 (0 : Fin 1) q)
      = V c main_v44 (ix2 (0 : Fin 1) (colOf128 (((cfg1.win 2).blk t).view.emb (ix2 r q)))) := by
    show V c main_v44 (((cfg1.win 1).blk t).view.emb (ix2 (0 : Fin 1) q)) = _
    refine congrArg (V c main_v44) ?_
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [hX, hB]

/-- An index of the result is in point `t`'s block iff its row is among that block's 5000 rows. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every block of rows is some point's. -/
theorem idx_onto : ∀ b : Fin 20, ∃ t : Fin cfg1.N, win1_2.index t = ![b.val, 0] :=
  (by decide +kernel : ∀ b : Fin 20, ∃ t : Fin grid1.N, win1_2.index t = ![b.val, 0])

/-- The 20 blocks cover the result. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the region is that function of the arrays the region finds. -/
theorem final (c : Dev nD) :
    (dat1 (F := Ideal) V c).arrAt 2 cfg1.N = biasRelu (V c main_v43) (V c main_v44) :=
  (dat1 V c).arrAt_eq_of_cover 2 (biasRelu (V c main_v43) (V c main_v44)) (fun t _ => flushed_eq V c t) (cover)

end Cert.KernelIdeal.Region1

end
-- ==== Proof.Region2.lean ====
/-
  Region 2: the second matrix product.  Grid point `t` multiplies block `t` (5000 rows) of the left matrix by the whole right matrix and writes block `t` of the result, so once all 20 points have written back the result array is the whole product: at `(p, q)` the sum over `k` of the left matrix at `(p, k)` times the right matrix at `(k, q)`.
-/
import proofs.«116687_j74337293959431_1_alg».proof.Proof.Gen.KernelIdeal.Frame
import proofs.«116687_j74337293959431_1_alg».proof.Proof.Bodies
import proofs.«116687_j74337293959431_1_alg».proof.Proof.Spec

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left matrix's and the result's block of point `t` is block `t` of rows;
    the right matrix has one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product of the arrays the region finds. -/
theorem flushed_eq (c : Dev nD) (t : Fin cfg2.N) :
    (dat2 (F := Ideal) V c).flushed 2 t
      = ((cfg2.win 2).blk t).view.read (Elt Ideal) (prod128 (V c main_v45) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e00, e01, e10, e11, e20, e21⟩ := idx_facts t
  funext j
  obtain ⟨r, q, rfl⟩ : ∃ (r : Fin 5000) (q : Fin 128), j = ix2 r q := ⟨j 0, j 1, eq_ix2 j⟩
  show k2_pay1 (iblk2 V c 0 t) (iblk2 V c 1 t) (ix2 r q)
    = prod128 (V c main_v45) (V c main_arg4) (((cfg2.win 2).blk t).view.emb (ix2 r q))
  refine (Bodies.pay2_apply (iblk2 V c 0 t) (iblk2 V c 1 t) r q).trans ?_
  refine (Finset.sum_congr rfl fun k _ => ?_).trans (prod128_apply _ _ _).symm
  have hA : iblk2 V c 0 t (ix2 r k)
      = V c main_v45 (ix2 (rowOf128 (((cfg2.win 2).blk t).view.emb (ix2 r q))) k) := by
    show V c main_v45 (((cfg2.win 0).blk t).view.emb (ix2 r k)) = _
    refine congrArg (V c main_v45) ?_
    funext a; apply Fin.ext
    match a with
    | ⟨0, _⟩ => show win2_0.index t (0 : Fin 2) * 5000 + 1 * r.val = win2_2.index t (0 : Fin 2) * 5000 + 1 * r.val; omega
    | ⟨1, _⟩ => show win2_0.index t (1 : Fin 2) * 128 + 1 * k.val = k.val; omega
  have hW : iblk2 V c 1 t (ix2 k q)
      = V c main_arg4 (ix2 k (colOf128 (((cfg2.win 2).blk t).view.emb (ix2 r q)))) := by
    show V c main_arg4 (((cfg2.win 1).blk t).view.emb (ix2 k q)) = _
    refine congrArg (V c main_arg4) ?_
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [hA, hW]

/-- An index of the result is in point `t`'s block iff its row is among that block's 5000 rows. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Every block of rows is some point's. -/
theorem idx_onto : ∀ b : Fin 20, ∃ t : Fin cfg2.N, win2_2.index t = ![b.val, 0] :=
  (by decide +kernel : ∀ b : Fin 20, ∃ t : Fin grid2.N, win2_2.index t = ![b.val, 0])

/-- The 20 blocks cover the result. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The result array after the region is the whole product of the arrays the region finds. -/
theorem final (c : Dev nD) :
    (dat2 (F := Ideal) V c).arrAt 2 cfg2.N = prod128 (V c main_v45) (V c main_arg4) :=
  (dat2 V c).arrAt_eq_of_cover 2 (prod128 (V c main_v45) (V c main_arg4)) (fun t _ => flushed_eq V c t) (cover)

end Cert.KernelIdeal.Region2

end
-- ==== Proof.Region3.lean ====
/-
  Region 3: the second bias and maximum with zero.  Grid point `t` adds the one bias row to block `t` (5000 rows) of the input and writes block `t` of the result, so once all 20 points have written back the result array is the whole-array function: at `(p, q)` the input at `(p, q)` plus the bias at column `q`, then the maximum with zero.
-/
import proofs.«116687_j74337293959431_1_alg».proof.Proof.Gen.KernelIdeal.Frame
import proofs.«116687_j74337293959431_1_alg».proof.Proof.Bodies
import proofs.«116687_j74337293959431_1_alg».proof.Proof.Spec

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input's and the result's block of point `t` is block `t` of rows;
    the bias row has one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole-array function of the arrays the region finds. -/
theorem flushed_eq (c : Dev nD) (t : Fin cfg3.N) :
    (dat3 (F := Ideal) V c).flushed 2 t
      = ((cfg3.win 2).blk t).view.read (Elt Ideal) (biasRelu (V c main_v59) (V c main_v60)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e00, e01, e10, e11, e20, e21⟩ := idx_facts t
  funext j
  obtain ⟨r, q, rfl⟩ : ∃ (r : Fin 5000) (q : Fin 128), j = ix2 r q := ⟨j 0, j 1, eq_ix2 j⟩
  show k3_pay1 (iblk3 V c 0 t) (iblk3 V c 1 t) (ix2 r q)
    = biasRelu (V c main_v59) (V c main_v60) (((cfg3.win 2).blk t).view.emb (ix2 r q))
  refine (Bodies.pay3_apply (iblk3 V c 0 t) (iblk3 V c 1 t) r q).trans ?_
  refine Eq.trans ?_ (biasRelu_apply _ _ _).symm
  have hX : iblk3 V c 0 t (ix2 r q) = V c main_v59 (((cfg3.win 2).blk t).view.emb (ix2 r q)) := by
    show V c main_v59 (((cfg3.win 0).blk t).view.emb (ix2 r q)) = _
    refine congrArg (V c main_v59) ?_
    funext a; apply Fin.ext
    match a with
    | ⟨0, _⟩ => show win3_0.index t (0 : Fin 2) * 5000 + 1 * r.val = win3_2.index t (0 : Fin 2) * 5000 + 1 * r.val; omega
    | ⟨1, _⟩ => show win3_0.index t (1 : Fin 2) * 128 + 1 * q.val = win3_2.index t (1 : Fin 2) * 128 + 1 * q.val; omega
  have hB : iblk3 V c 1 t (ix2 (0 : Fin 1) q)
      = V c main_v60 (ix2 (0 : Fin 1) (colOf128 (((cfg3.win 2).blk t).view.emb (ix2 r q)))) := by
    show V c main_v60 (((cfg3.win 1).blk t).view.emb (ix2 (0 : Fin 1) q)) = _
    refine congrArg (V c main_v60) ?_
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [hX, hB]

/-- An index of the result is in point `t`'s block iff its row is among that block's 5000 rows. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Every block of rows is some point's. -/
theorem idx_onto : ∀ b : Fin 20, ∃ t : Fin cfg3.N, win3_2.index t = ![b.val, 0] :=
  (by decide +kernel : ∀ b : Fin 20, ∃ t : Fin grid3.N, win3_2.index t = ![b.val, 0])

/-- The 20 blocks cover the result. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The result array after the region is that function of the arrays the region finds. -/
theorem final (c : Dev nD) :
    (dat3 (F := Ideal) V c).arrAt 2 cfg3.N = biasRelu (V c main_v59) (V c main_v60) :=
  (dat3 V c).arrAt_eq_of_cover 2 (biasRelu (V c main_v59) (V c main_v60)) (fun t _ => flushed_eq V c t) (cover)

end Cert.KernelIdeal.Region3

end
-- ==== Proof.Region4.lean ====
/-
  Region 4: the third matrix product.  Grid point `t` multiplies block `t` (5000 rows) of the left matrix by the whole right matrix and writes block `t` of the result, so once all 20 points have written back the result array is the whole product: at `(p, q)` the sum over `k` of the left matrix at `(p, k)` times the right matrix at `(k, q)`.
-/
import proofs.«116687_j74337293959431_1_alg».proof.Proof.Gen.KernelIdeal.Frame
import proofs.«116687_j74337293959431_1_alg».proof.Proof.Bodies
import proofs.«116687_j74337293959431_1_alg».proof.Proof.Spec

set_option maxRecDepth 16384

noncomputable section

open scoped BigOperators

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left matrix's and the result's block of point `t` is block `t` of rows;
    the right matrix has one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the whole product of the arrays the region finds. -/
theorem flushed_eq (c : Dev nD) (t : Fin cfg4.N) :
    (dat4 (F := Ideal) V c).flushed 2 t
      = ((cfg4.win 2).blk t).view.read (Elt Ideal) (prod128 (V c main_v61) (V c main_arg6)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨e00, e01, e10, e11, e20, e21⟩ := idx_facts t
  funext j
  obtain ⟨r, q, rfl⟩ : ∃ (r : Fin 5000) (q : Fin 128), j = ix2 r q := ⟨j 0, j 1, eq_ix2 j⟩
  show k4_pay1 (iblk4 V c 0 t) (iblk4 V c 1 t) (ix2 r q)
    = prod128 (V c main_v61) (V c main_arg6) (((cfg4.win 2).blk t).view.emb (ix2 r q))
  refine (Bodies.pay4_apply (iblk4 V c 0 t) (iblk4 V c 1 t) r q).trans ?_
  refine (Finset.sum_congr rfl fun k _ => ?_).trans (prod128_apply _ _ _).symm
  have hA : iblk4 V c 0 t (ix2 r k)
      = V c main_v61 (ix2 (rowOf128 (((cfg4.win 2).blk t).view.emb (ix2 r q))) k) := by
    show V c main_v61 (((cfg4.win 0).blk t).view.emb (ix2 r k)) = _
    refine congrArg (V c main_v61) ?_
    funext a; apply Fin.ext
    match a with
    | ⟨0, _⟩ => show win4_0.index t (0 : Fin 2) * 5000 + 1 * r.val = win4_2.index t (0 : Fin 2) * 5000 + 1 * r.val; omega
    | ⟨1, _⟩ => show win4_0.index t (1 : Fin 2) * 128 + 1 * k.val = k.val; omega
  have hW : iblk4 V c 1 t (ix2 k q)
      = V c main_arg6 (ix2 k (colOf128 (((cfg4.win 2).blk t).view.emb (ix2 r q)))) := by
    show V c main_arg6 (((cfg4.win 1).blk t).view.emb (ix2 k q)) = _
    refine congrArg (V c main_arg6) ?_
    funext a; apply Fin.ext
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega
  rw [hA, hW]

/-- An index of the result is in point `t`'s block iff its row is among that block's 5000 rows. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v62).slice (win4_2.rect t)).set ↔ _
  rw [View.set_slice_whole, Rect.mem_set_unit]
  exact Iff.rfl

/-- Every block of rows is some point's. -/
theorem idx_onto : ∀ b : Fin 20, ∃ t : Fin cfg4.N, win4_2.index t = ![b.val, 0] :=
  (by decide +kernel : ∀ b : Fin 20, ∃ t : Fin grid4.N, win4_2.index t = ![b.val, 0])

/-- The 20 blocks cover the result. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := idx_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The result array after the region is the whole product of the arrays the region finds. -/
theorem final (c : Dev nD) :
    (dat4 (F := Ideal) V c).arrAt 2 cfg4.N = prod128 (V c main_v61) (V c main_arg6) :=
  (dat4 V c).arrAt_eq_of_cover 2 (prod128 (V c main_v61) (V c main_arg6)) (fun t _ => flushed_eq V c t) (cover)

end Cert.KernelIdeal.Region4

end
-- ==== Proof.Region5.lean ====
/-
  Region 5: the third bias and maximum with zero.  Grid point `t` adds the one bias row to block `t` (5000 rows) of the input and writes block `t` of the result, so once all 20 points have written back the result array is the whole-array function: at `(p, q)` the input at `(p, q)` plus the bias at column `q`, then the maximum with zero.
-/
import proofs.«116687_j74337293959431_1_alg».proof.Proof.Gen.KernelIdeal.Frame
import proofs.«116687_j74337293959431_1_alg».proof.Proof.Bodies
import proofs.«116687_j74337293959431_1_alg».proof.Proof.Spec

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input's and the result's block of point `t` is block `t` of rows;
    the bias row has one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the whole-array function of the arrays the region finds. -/
theorem flushed_eq (c : Dev nD) (t : Fin cfg5.N) :
    (dat5 (F := Ideal) V c).flushed 2 t
      = ((cfg5.win 2).blk t).view.read (Elt Ideal) (biasRelu (V c main_v75) (V c main_v76)) := by
  show (cfg5.win 2).cut (grid5.coords t) ((dat5 V c).after 2 t) = _
  rw [after5_2]
  unfold out5_2
  rw [View.canon_unit_zero hz]
  simp only [View.ld_unit_zero (S := S5000x128) hz, View.ld_unit_zero (S := S1x128) hz]
  obtain ⟨e00, e01, e10, e11, e20, e21⟩ := idx_facts t
  funext j
  obtain ⟨r, q, rfl⟩ : ∃ (r : Fin 5000) (q : Fin 128), j = ix2 r q := ⟨j 0, j 1, eq_ix2 j⟩
  show k5_pay1 (iblk5 V c 0 t) (iblk5 V c 1 t) (ix2 r q)
    = biasRelu (V c main_v75) (V c main_v76) (((cfg5.win 2).blk t).view.emb (ix2 r q))
  refine (Bodies.pay5_apply (iblk5 V c 0 t) (iblk5 V c 1 t) r q).trans ?_
  refine Eq.trans ?_ (biasRelu_apply _ _ _).symm
  have hX : iblk5 V c 0 t (ix2 r q) = V c main_v75 (((cfg5.win 2).blk t).view.emb (ix2 r q)) := by
    show V c main_v75 (((cfg5.win 0).blk t).view.emb (ix2 r q)) = _
    refine congrArg (V c main_v75) ?_
    funext a; apply Fin.ext
    match a with
    | ⟨0, _⟩ => show win5_0.index t (0 : Fin 2) * 5000 + 1 * r.val = win5_2.index t (0 : Fin 2) * 5000 + 1 * r.val; omega
    | ⟨1, _⟩ => show win5_0.index t (1 : Fin 2) * 128 + 1 * q.val = win5_2.index t (1 : Fin 2) * 128 + 1 * q.val; omega
  have hB : iblk5 V c 1 t (ix2 (0 : Fin 1) q)
      = V c main_v76 (ix2 (0 : Fin 1) (colOf128 (((cfg5.win 2).blk t).view.emb (ix2 r q)))) := by
    show V c main_v76 (((cfg5.win 1).blk t).view.emb (ix2 (0 : Fin 1) q)) = _
    refine congrArg (V c main_v76) ?_
    funext a; apply Fin.ext
    match a with
    | ⟨0, _⟩ => show win5_1.index t (0 : Fin 2) * 1 + 1 * 0 = 0; omega
    | ⟨1, _⟩ => show win5_1.index t (1 : Fin 2) * 128 + 1 * q.val = win5_2.index t (1 : Fin 2) * 128 + 1 * q.val; omega
  rw [hX, hB]

/-- An index of the result is in point `t`'s block iff its row is among that block's 5000 rows. -/
theorem mem_blk (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v77).slice (win5_2.rect t)).set ↔ _
  rw [View.set_slice_whole, Rect.mem_set_unit]
  exact Iff.rfl

/-- Every block of rows is some point's. -/
theorem idx_onto : ∀ b : Fin 20, ∃ t : Fin cfg5.N, win5_2.index t = ![b.val, 0] :=
  (by decide +kernel : ∀ b : Fin 20, ∃ t : Fin grid5.N, win5_2.index t = ![b.val, 0])

/-- The 20 blocks cover the result. -/
theorem cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ := idx_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The result array after the region is that function of the arrays the region finds. -/
theorem final (c : Dev nD) :
    (dat5 (F := Ideal) V c).arrAt 2 cfg5.N = biasRelu (V c main_v75) (V c main_v76) :=
  (dat5 V c).arrAt_eq_of_cover 2 (biasRelu (V c main_v75) (V c main_v76)) (fun t _ => flushed_eq V c t) (cover)

end Cert.KernelIdeal.Region5

end
-- ==== Proof.Region6.lean ====
/-
  Region 6: the last matrix product, into 64 columns.  Grid point `t` multiplies block `t` (5000 rows) of the left matrix by the whole right matrix and writes block `t` of the result, so once all 20 points have written back the result array is the whole product: at `(p, q)` the sum over `k` of the left matrix at `(p, k)` times the right matrix at `(k, q)`.
-/
import proofs.«116687_j74337293959431_1_alg».proof.Proof.Gen.KernelIdeal.Frame
import proofs.«116687_j74337293959431_1_alg».proof.Proof.Bodies
import proofs.«116687_j74337293959431_1_alg».proof.Proof.Spec

set_option maxRecDepth 16384

noncomputable section

open scoped BigOperators

namespace Cert.KernelIdeal.Region6

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left matrix's and the result's block of point `t` is block `t` of rows;
    the right matrix has one block. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the whole product of the arrays the region finds. -/
theorem flushed_eq (c : Dev nD) (t : Fin cfg6.N) :
    (dat6 (F := Ideal) V c).flushed 2 t
      = ((cfg6.win 2).blk t).view.read (Elt Ideal) (prod64 (V c main_v77) (V c main_arg8)) := by
  show (cfg6.win 2).cut (grid6.coords t) ((dat6 V c).after 2 t) = _
  rw [after6_2]
  unfold out6_2
  rw [View.canon_unit_zero hz]
  simp only [View.ld_unit_zero (S := S5000x128) hz, View.ld_unit_zero (S := S128x64) hz]
  obtain ⟨e00, e01, e10, e11, e20, e21⟩ := idx_facts t
  funext j
  obtain ⟨r, q, rfl⟩ : ∃ (r : Fin 5000) (q : Fin 64), j = ix2 r q := ⟨j 0, j 1, eq_ix2 j⟩
  show k6_pay1 (iblk6 V c 0 t) (iblk6 V c 1 t) (ix2 r q)
    = prod64 (V c main_v77) (V c main_arg8) (((cfg6.win 2).blk t).view.emb (ix2 r q))
  refine (Bodies.pay6_apply (iblk6 V c 0 t) (iblk6 V c 1 t) r q).trans ?_
  refine (Finset.sum_congr rfl fun k _ => ?_).trans (prod64_apply _ _ _).symm
  have hA : iblk6 V c 0 t (ix2 r k)
      = V c main_v77 (ix2 (rowOf64 (((cfg6.win 2).blk t).view.emb (ix2 r q))) k) := by
    show V c main_v77 (((cfg6.win 0).blk t).view.emb (ix2 r k)) = _
    refine congrArg (V c main_v77) ?_
    funext a; apply Fin.ext
    match a with
    | ⟨0, _⟩ => show win6_0.index t (0 : Fin 2) * 5000 + 1 * r.val = win6_2.index t (0 : Fin 2) * 5000 + 1 * r.val; omega
    | ⟨1, _⟩ => show win6_0.index t (1 : Fin 2) * 128 + 1 * k.val = k.val; omega
  have hW : iblk6 V c 1 t (ix2 k q)
      = V c main_arg8 (ix2 k (colOf64 (((cfg6.win 2).blk t).view.emb (ix2 r q)))) := by
    show V c main_arg8 (((cfg6.win 1).blk t).view.emb (ix2 k q)) = _
    refine congrArg (V c main_arg8) ?_
    funext a; apply Fin.ext
    match a with
    | ⟨0, _⟩ => show win6_1.index t (0 : Fin 2) * 128 + 1 * k.val = k.val; omega
    | ⟨1, _⟩ => show win6_1.index t (1 : Fin 2) * 64 + 1 * q.val = win6_2.index t (1 : Fin 2) * 64 + 1 * q.val; omega
  rw [hA, hW]

/-- An index of the result is in point `t`'s block iff its row is among that block's 5000 rows. -/
theorem mem_blk (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v78).slice (win6_2.rect t)).set ↔ _
  rw [View.set_slice_whole, Rect.mem_set_unit]
  exact Iff.rfl

/-- Every block of rows is some point's. -/
theorem idx_onto : ∀ b : Fin 20, ∃ t : Fin cfg6.N, win6_2.index t = ![b.val, 0] :=
  (by decide +kernel : ∀ b : Fin 20, ∃ t : Fin grid6.N, win6_2.index t = ![b.val, 0])

/-- The 20 blocks cover the result. -/
theorem cover (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  obtain ⟨t, ht⟩ := idx_onto ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- The result array after the region is the whole product of the arrays the region finds. -/
theorem final (c : Dev nD) :
    (dat6 (F := Ideal) V c).arrAt 2 cfg6.N = prod64 (V c main_v77) (V c main_arg8) :=
  (dat6 V c).arrAt_eq_of_cover 2 (prod64 (V c main_v77) (V c main_arg8)) (fun t _ => flushed_eq V c t) (cover)

end Cert.KernelIdeal.Region6

end
-- ==== Proof.Region7.lean ====
/-
  Region 7: the output bias.  Grid point `t` adds the one bias row to block `t` (5000 rows) of the input and writes block `t` of the result, so once all 20 points have written back the result array is the whole-array function: at `(p, q)` the input at `(p, q)` plus the bias at column `q`.
-/
import proofs.«116687_j74337293959431_1_alg».proof.Proof.Gen.KernelIdeal.Frame
import proofs.«116687_j74337293959431_1_alg».proof.Proof.Bodies
import proofs.«116687_j74337293959431_1_alg».proof.Proof.Spec

set_option maxRecDepth 16384

noncomputable section

namespace Cert.KernelIdeal.Region7

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input's and the result's block of point `t` is block `t` of rows;
    the bias row has one block. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point `t` writes back is block `t` of the whole-array function of the arrays the region finds. -/
theorem flushed_eq (c : Dev nD) (t : Fin cfg7.N) :
    (dat7 (F := Ideal) V c).flushed 2 t
      = ((cfg7.win 2).blk t).view.read (Elt Ideal) (bias64 (V c main_v78) (V c main_v79)) := by
  show (cfg7.win 2).cut (grid7.coords t) ((dat7 V c).after 2 t) = _
  rw [after7_2]
  unfold out7_2
  rw [View.canon_unit_zero hz]
  simp only [View.ld_unit_zero (S := S5000x64) hz, View.ld_unit_zero (S := S1x64) hz]
  obtain ⟨e00, e01, e10, e11, e20, e21⟩ := idx_facts t
  funext j
  obtain ⟨r, q, rfl⟩ : ∃ (r : Fin 5000) (q : Fin 64), j = ix2 r q := ⟨j 0, j 1, eq_ix2 j⟩
  show k7_pay1 (iblk7 V c 0 t) (iblk7 V c 1 t) (ix2 r q)
    = bias64 (V c main_v78) (V c main_v79) (((cfg7.win 2).blk t).view.emb (ix2 r q))
  refine (Bodies.pay7_apply (iblk7 V c 0 t) (iblk7 V c 1 t) r q).trans ?_
  refine Eq.trans ?_ (bias64_apply _ _ _).symm
  have hX : iblk7 V c 0 t (ix2 r q) = V c main_v78 (((cfg7.win 2).blk t).view.emb (ix2 r q)) := by
    show V c main_v78 (((cfg7.win 0).blk t).view.emb (ix2 r q)) = _
    refine congrArg (V c main_v78) ?_
    funext a; apply Fin.ext
    match a with
    | ⟨0, _⟩ => show win7_0.index t (0 : Fin 2) * 5000 + 1 * r.val = win7_2.index t (0 : Fin 2) * 5000 + 1 * r.val; omega
    | ⟨1, _⟩ => show win7_0.index t (1 : Fin 2) * 64 + 1 * q.val = win7_2.index t (1 : Fin 2) * 64 + 1 * q.val; omega
  have hB : iblk7 V c 1 t (ix2 (0 : Fin 1) q)
      = V c main_v79 (ix2 (0 : Fin 1) (colOf64 (((cfg7.win 2).blk t).view.emb (ix2 r q)))) := by
    show V c main_v79 (((cfg7.win 1).blk t).view.emb (ix2 (0 : Fin 1) q)) = _
    refine congrArg (V c main_v79) ?_
    funext a; apply Fin.ext
    match a with
    | ⟨0, _⟩ => show win7_1.index t (0 : Fin 2) * 1 + 1 * 0 = 0; omega
    | ⟨1, _⟩ => show win7_1.index t (1 : Fin 2) * 64 + 1 * q.val = win7_2.index t (1 : Fin 2) * 64 + 1 * q.val; omega
  rw [hX, hB]

/-- An index of the result is in point `t`'s block iff its row is among that block's 5000 rows. -/
theorem mem_blk (t : Fin cfg7.N) (i : S100000x64.Idx) :
    i ∈ ((cfg7.win 2).blk t).view.set ↔ ∀ a : Fin 2, win7_2.index t a * S5000x64.size a ≤ (i a).val ∧ (i a).val < win7_2.index t a * S5000x64.size a + S5000x64.size a := by
  show i ∈ ((View.whole main_v80).slice (win7_2.rect t)).set ↔ _
  rw [View.set_slice_whole, Rect.mem_set_unit]
  exact Iff.rfl

/-- Every block of rows is some point's. -/
theorem idx_onto : ∀ b : Fin 20, ∃ t : Fin cfg7.N, win7_2.index t = ![b.val, 0] :=
  (by decide +kernel : ∀ b : Fin 20, ∃ t : Fin grid7.N, win7_2.index t = ![b.val, 0])

/-- The 20 blocks cover the result. -/
theorem cover (i : S100000x64.Idx) :
    ∃ t : Fin cfg7.N, (cfg7.win 2).flush t = true ∧ i ∈ ((cfg7.win 2).blk t).view.set := by
  have hi0 : (i 0).val < 100000 := (i 0).isLt
  have hi1 : (i 1).val < 64 := (i 1).isLt
  obtain ⟨t, ht⟩ := idx_onto ⟨(i 0).val / 5000, by omega⟩
  have q0 : win7_2.index t (0 : Fin 2) = (i 0).val / 5000 := congrFun ht 0
  have q1 : win7_2.index t (1 : Fin 2) = 0 := congrFun ht 1
  refine ⟨t, flush7_2 t, ?_⟩
  rw [mem_blk]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 64 ≤ (i 1).val ∧ (i 1).val < win7_2.index t (1 : Fin 2) * 64 + 64; omega

/-- The result array after the region is that function of the arrays the region finds. -/
theorem final (c : Dev nD) :
    (dat7 (F := Ideal) V c).arrAt 2 cfg7.N = bias64 (V c main_v78) (V c main_v79) :=
  (dat7 V c).arrAt_eq_of_cover 2 (bias64 (V c main_v78) (V c main_v79)) (fun t _ => flushed_eq V c t) (cover)

end Cert.KernelIdeal.Region7

end
-- ==== Proof.RefStages.lean ====
/-
  The reference, stage by stage, in the words of the specification: each of its four `dot_general`s is the whole
  matrix product of the stage before it by a weight matrix (the sum over the contracted coordinate), each
  `add` of a broadcast bias followed by `maximum` with a broadcast zero is "bias, then the maximum with zero", and
  the last `add` is the bias alone.  The gathers, scalings and scatter-adds between them stay as the reference's own
  stages.
-/
import proofs.«116687_j74337293959431_1_alg».proof.Proof.RefRead
import proofs.«116687_j74337293959431_1_alg».proof.Proof.Spec
import Idealize.ShloMosaic.Lib.ValueLayout

noncomputable section

open scoped BigOperators

namespace Cert.ReferenceIdeal.Stages

open Idealize.ShloMosaic Idealize.ShloMosaic.ValueIdx Cert.ReferenceIdeal Cert.ReferenceIdeal.Read Cert.Spec

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x64, .f32⟩ : BufTy).Contents (Elt Ideal)) (x9 : (⟨S64, .f32⟩ : BufTy).Contents (Elt Ideal))

/-! ## The products -/

/-- The first product, of the input features by the first weight matrix. -/
theorem v30_eq : val_main_v30 (F := Ideal) x0 x2 = prod128 x0 x2 := by
  funext i
  rw [val_main_v30_apply, prod128_apply]
  refine Finset.sum_congr rfl fun k _ => ?_
  have e1 : lidx_main_v30 i k = ix2 (rowOf128 i) k := funext fun a => Fin.ext (by
    match a with
    | ⟨0, _⟩ => rfl
    | ⟨1, _⟩ => rfl)
  have e2 : ridx_main_v30 i k = ix2 k (colOf128 i) := funext fun a => Fin.ext (by
    match a with
    | ⟨0, _⟩ => rfl
    | ⟨1, _⟩ => rfl)
  rw [e1, e2]

/-- The second product, of the first layer's output by the second weight matrix. -/
theorem v48_eq : val_main_v48 (F := Ideal) x0 x1 x2 x3 x4 = prod128 (val_main_v47 (F := Ideal) x0 x1 x2 x3) x4 := by
  funext i
  rw [val_main_v48_apply, prod128_apply]
  refine Finset.sum_congr rfl fun k _ => ?_
  have e1 : lidx_main_v48 i k = ix2 (rowOf128 i) k := funext fun a => Fin.ext (by
    match a with
    | ⟨0, _⟩ => rfl
    | ⟨1, _⟩ => rfl)
  have e2 : ridx_main_v48 i k = ix2 k (colOf128 i) := funext fun a => Fin.ext (by
    match a with
    | ⟨0, _⟩ => rfl
    | ⟨1, _⟩ => rfl)
  rw [e1, e2]

/-- The third product. -/
theorem v66_eq : val_main_v66 (F := Ideal) x0 x1 x2 x3 x4 x5 x6
    = prod128 (val_main_v65 (F := Ideal) x0 x1 x2 x3 x4 x5) x6 := by
  funext i
  rw [val_main_v66_apply, prod128_apply]
  refine Finset.sum_congr rfl fun k _ => ?_
  have e1 : lidx_main_v66 i k = ix2 (rowOf128 i) k := funext fun a => Fin.ext (by
    match a with
    | ⟨0, _⟩ => rfl
    | ⟨1, _⟩ => rfl)
  have e2 : ridx_main_v66 i k = ix2 k (colOf128 i) := funext fun a => Fin.ext (by
    match a with
    | ⟨0, _⟩ => rfl
    | ⟨1, _⟩ => rfl)
  rw [e1, e2]

/-- The last product, into 64 columns. -/
theorem v84_eq : val_main_v84 (F := Ideal) x0 x1 x2 x3 x4 x5 x6 x7 x8
    = prod64 (val_main_v83 (F := Ideal) x0 x1 x2 x3 x4 x5 x6 x7) x8 := by
  funext i
  rw [val_main_v84_apply, prod64_apply]
  refine Finset.sum_congr rfl fun k _ => ?_
  have e1 : lidx_main_v84 i k = ix2 (rowOf64 i) k := funext fun a => Fin.ext (by
    match a with
    | ⟨0, _⟩ => rfl
    | ⟨1, _⟩ => rfl)
  have e2 : ridx_main_v84 i k = ix2 k (colOf64 i) := funext fun a => Fin.ext (by
    match a with
    | ⟨0, _⟩ => rfl
    | ⟨1, _⟩ => rfl)
  rw [e1, e2]

/-! ## Bias, then the maximum with zero -/

/-- The first layer's output: its aggregate plus the bias row, then the maximum with zero. -/
theorem v47_eq : val_main_v47 (F := Ideal) x0 x1 x2 x3
    = biasRelu (val_main_v43 (F := Ideal) x0 x1 x2) (val_main_v44 (F := Ideal) x3) := by
  funext i
  rw [val_main_v47_apply, val_main_v46_apply, val_main_v45_apply, val_main_call1_v0_apply, val_main_call1_cst_apply,
    biasRelu_apply]
  have e : idx_main_v45 i = ix2 (0 : Fin 1) (colOf128 i) := funext fun a => Fin.ext (by
    match a with
    | ⟨0, _⟩ => rfl
    | ⟨1, _⟩ => rfl)
  rw [e]
  rfl

/-- The second layer's output. -/
theorem v65_eq : val_main_v65 (F := Ideal) x0 x1 x2 x3 x4 x5
    = biasRelu (val_main_v61 (F := Ideal) x0 x1 x2 x3 x4) (val_main_v62 (F := Ideal) x5) := by
  funext i
  rw [val_main_v65_apply, val_main_v64_apply, val_main_v63_apply, val_main_call2_v0_apply, val_main_call2_cst_apply,
    biasRelu_apply]
  have e : idx_main_v63 i = ix2 (0 : Fin 1) (colOf128 i) := funext fun a => Fin.ext (by
    match a with
    | ⟨0, _⟩ => rfl
    | ⟨1, _⟩ => rfl)
  rw [e]
  rfl

/-- The third layer's output. -/
theorem v83_eq : val_main_v83 (F := Ideal) x0 x1 x2 x3 x4 x5 x6 x7
    = biasRelu (val_main_v79 (F := Ideal) x0 x1 x2 x3 x4 x5 x6) (val_main_v80 (F := Ideal) x7) := by
  funext i
  rw [val_main_v83_apply, val_main_v82_apply, val_main_v81_apply, val_main_call3_v0_apply, val_main_call3_cst_apply,
    biasRelu_apply]
  have e : idx_main_v81 i = ix2 (0 : Fin 1) (colOf128 i) := funext fun a => Fin.ext (by
    match a with
    | ⟨0, _⟩ => rfl
    | ⟨1, _⟩ => rfl)
  rw [e]
  rfl

/-- The result: the last product plus its bias row. -/
theorem v87_eq : val_main_v87 (F := Ideal) x0 x1 x2 x3 x4 x5 x6 x7 x8 x9
    = bias64 (val_main_v84 (F := Ideal) x0 x1 x2 x3 x4 x5 x6 x7 x8) (val_main_v85 (F := Ideal) x9) := by
  funext i
  rw [val_main_v87_apply, val_main_v86_apply, bias64_apply]
  have e : idx_main_v86 i = ix2 (0 : Fin 1) (colOf64 i) := funext fun a => Fin.ext (by
    match a with
    | ⟨0, _⟩ => rfl
    | ⟨1, _⟩ => rfl)
  rw [e]
  rfl

/-! ## The bias rows -/

/-- The reference's bias as a one-row matrix reads the bias vector at the column: so does the vector reshaped into a row. -/
theorem v44_row (h : (⟨1, ![128]⟩ : Shape).ShapeCasts ⟨2, ![1, 128]⟩) :
    val_main_v44 (F := Ideal) x3 = shapeCast ⟨2, ![1, 128]⟩ x3 h := by
  funext i
  obtain ⟨u, j, rfl⟩ : ∃ (u : Fin 1) (j : Fin 128), i = ix2 u j := ⟨i 0, i 1, eq_ix2 i⟩
  rw [val_main_v44_apply, shapeCast_a_1a_apply]
  refine congrArg x3 ?_
  funext a; apply Fin.ext
  match a with
  | ⟨0, _⟩ => rfl

/-- The reference's bias as a one-row matrix reads the bias vector at the column: so does the vector reshaped into a row. -/
theorem v62_row (h : (⟨1, ![128]⟩ : Shape).ShapeCasts ⟨2, ![1, 128]⟩) :
    val_main_v62 (F := Ideal) x5 = shapeCast ⟨2, ![1, 128]⟩ x5 h := by
  funext i
  obtain ⟨u, j, rfl⟩ : ∃ (u : Fin 1) (j : Fin 128), i = ix2 u j := ⟨i 0, i 1, eq_ix2 i⟩
  rw [val_main_v62_apply, shapeCast_a_1a_apply]
  refine congrArg x5 ?_
  funext a; apply Fin.ext
  match a with
  | ⟨0, _⟩ => rfl

/-- The reference's bias as a one-row matrix reads the bias vector at the column: so does the vector reshaped into a row. -/
theorem v80_row (h : (⟨1, ![128]⟩ : Shape).ShapeCasts ⟨2, ![1, 128]⟩) :
    val_main_v80 (F := Ideal) x7 = shapeCast ⟨2, ![1, 128]⟩ x7 h := by
  funext i
  obtain ⟨u, j, rfl⟩ : ∃ (u : Fin 1) (j : Fin 128), i = ix2 u j := ⟨i 0, i 1, eq_ix2 i⟩
  rw [val_main_v80_apply, shapeCast_a_1a_apply]
  refine congrArg x7 ?_
  funext a; apply Fin.ext
  match a with
  | ⟨0, _⟩ => rfl

/-- The reference's bias as a one-row matrix reads the bias vector at the column: so does the vector reshaped into a row. -/
theorem v85_row (h : (⟨1, ![64]⟩ : Shape).ShapeCasts ⟨2, ![1, 64]⟩) :
    val_main_v85 (F := Ideal) x9 = shapeCast ⟨2, ![1, 64]⟩ x9 h := by
  funext i
  obtain ⟨u, j, rfl⟩ : ∃ (u : Fin 1) (j : Fin 64), i = ix2 u j := ⟨i 0, i 1, eq_ix2 i⟩
  rw [val_main_v85_apply, shapeCast_a_1a_apply]
  refine congrArg x9 ?_
  funext a; apply Fin.ext
  match a with
  | ⟨0, _⟩ => rfl

end Cert.ReferenceIdeal.Stages

end
-- ==== Proof.LibLine.lean ====
/- A straight line of host operations in single-assignment form: every operation writes one buffer, and a
   buffer read by an operation is never written at or after it. Then the contents a buffer holds after the whole
   line are what its own operation computes from the contents its operands hold after the whole line. -/
import Idealize.ShloMosaic.Lib.StableHlo.Run
import Idealize.ShloMosaic.Lib.Pipeline.Frame

namespace Cert.LibLine

open Idealize.ShloMosaic Idealize.ShloMosaic.TcCoe Idealize.ShloMosaic.StableHlo

variable {τ : Topo} {sig : RefSig} {Val : EltTy → Type}

/-- Operation by operation, the line `ops` writes exactly the references `outs`. -/
abbrev WritesAre (ops : List (HloOp τ sig Val)) (outs : List (Ref sig .tc)) : Prop :=
  List.Forall₂ (fun op y => op.writes = {Proc.devRef (τ := τ) .tc y}) ops outs

/-- A reference that is not among the written ones keeps its contents. -/
theorem after_of_writesAre {ops : List (HloOp τ sig Val)} {outs : List (Ref sig .tc)} (h : WritesAre ops outs)
    (V : Valuation τ sig Val) {r : Ref sig .tc} (hr : r ∉ outs) :
    after ops V (Proc.devRef .tc r) = V (Proc.devRef .tc r) := by
  induction h generalizing V with
  | nil => rfl
  | @cons op y ops' outs' hw _ ih =>
    rw [after_cons, ih _ (fun hm => hr (List.mem_cons_of_mem _ hm)), HloOp.result_of_not_mem]
    rw [hw, Finset.mem_singleton]
    exact devRef_ne_of_ne (fun e => hr (e ▸ List.mem_cons_self))

/-- A reference written by none of the operations from position `k` on holds, after the whole line, what it
    holds after the first `k` operations. -/
theorem after_eq_take {ops : List (HloOp τ sig Val)} {outs : List (Ref sig .tc)} (h : WritesAre ops outs) (k : Nat)
    (V : Valuation τ sig Val) {r : Ref sig .tc} (hr : r ∉ outs.drop k) :
    after ops V (Proc.devRef .tc r) = after (ops.take k) V (Proc.devRef .tc r) := by
  conv_lhs => rw [← List.take_append_drop k ops]
  rw [StableHlo.after_append]
  exact after_of_writesAre (List.forall₂_drop k h) _ hr

/-- The contents after the first `k + 1` operations, at the `k`-th operation. -/
theorem after_take_succ {ops : List (HloOp τ sig Val)} {k : Nat} {op : HloOp τ sig Val} (hk : ops[k]? = some op)
    (V : Valuation τ sig Val) : after (ops.take (k + 1)) V = op.result (after (ops.take k) V) := by
  rw [List.take_succ, hk, StableHlo.after_append]; rfl

section Stages

variable {ops : List (HloOp τ sig Val)} {outs : List (Ref sig .tc)} (h : WritesAre ops outs) (k : Nat)
include h

/-- The stage of a constant. -/
theorem stage_nullary (y : Ref sig .tc) (v : y.ty.Contents Val) {hy}
    (hk : ops[k]? = some (nullary y v hy)) (hy' : y ∉ outs.drop (k + 1)) (V : Valuation τ sig Val) :
    after ops V (Proc.devRef .tc y) = v := by
  rw [after_eq_take h (k + 1) V hy', after_take_succ hk]; exact nullary_result ..

/-- The stage of a one-operand operation. -/
theorem stage_unary (x y : Ref sig .tc) (f : x.ty.Contents Val → y.ty.Contents Val) {hx hy}
    (hk : ops[k]? = some (unary x y f hx hy)) (hy' : y ∉ outs.drop (k + 1)) (hx' : x ∉ outs.drop k)
    (V : Valuation τ sig Val) :
    after ops V (Proc.devRef .tc y) = f (after ops V (Proc.devRef .tc x)) := by
  rw [after_eq_take h (k + 1) V hy', after_eq_take h k V hx', after_take_succ hk]; exact unary_result ..

/-- The stage of a two-operand operation. -/
theorem stage_binary (a b y : Ref sig .tc) (f : a.ty.Contents Val → b.ty.Contents Val → y.ty.Contents Val) {ha hb hy}
    (hk : ops[k]? = some (binary a b y f ha hb hy)) (hy' : y ∉ outs.drop (k + 1)) (ha' : a ∉ outs.drop k)
    (hb' : b ∉ outs.drop k) (V : Valuation τ sig Val) :
    after ops V (Proc.devRef .tc y) = f (after ops V (Proc.devRef .tc a)) (after ops V (Proc.devRef .tc b)) := by
  rw [after_eq_take h (k + 1) V hy', after_eq_take h k V ha', after_eq_take h k V hb', after_take_succ hk]
  exact binary_result ..

/-- The stage of a reshape. -/
theorem stage_reshape (x y : Ref sig .tc) (he : x.ty.elt = y.ty.elt) (hn : x.ty.shape.ShapeCasts y.ty.shape) {hx hy}
    (hk : ops[k]? = some (reshape x y he hn hx hy)) (hy' : y ∉ outs.drop (k + 1)) (hx' : x ∉ outs.drop k)
    (V : Valuation τ sig Val) :
    after ops V (Proc.devRef .tc y) = fun i => he ▸ shapeCast y.ty.shape (after ops V (Proc.devRef .tc x)) hn i := by
  rw [after_eq_take h (k + 1) V hy', after_eq_take h k V hx', after_take_succ hk]; exact reshape_result ..

/-- The stage of an operation over a family of operands. -/
theorem stage_nary {n : Nat} (xs : Fin n → Ref sig .tc) (y : Ref sig .tc)
    (f : ((j : Fin n) → (xs j).ty.Contents Val) → y.ty.Contents Val) {hxs hy}
    (hk : ops[k]? = some (nary xs y f hxs hy)) (hy' : y ∉ outs.drop (k + 1)) (hxs' : ∀ j, xs j ∉ outs.drop k)
    (V : Valuation τ sig Val) :
    after ops V (Proc.devRef .tc y) = f (fun j => after ops V (Proc.devRef .tc (xs j))) := by
  rw [after_eq_take h (k + 1) V hy', after_take_succ hk, nary_result]
  exact congrArg f (funext fun j => (after_eq_take h k V (hxs' j)).symm)

end Stages

end Cert.LibLine
-- ==== Proof.LibLineTernary.lean ====
/- Two more stages for a straight line of host operations in single-assignment form (companions of the stages
   for constants, one- and two-operand operations and reshapes): a THREE-operand operation (a select, a scatter), and a
   two-operand operation of an inlined function, whose values are carried to and from its buffers along equations
   between types that are reflexivity for a literal buffer. In both, what the written buffer holds after the WHOLE line
   is the operation's function of what its operands hold after the whole line. -/
import proofs.«116687_j74337293959431_1_alg».proof.Proof.LibLine

namespace Cert.LibLine

open Idealize.ShloMosaic Idealize.ShloMosaic.TcCoe Idealize.ShloMosaic.StableHlo

/-- The stage of a three-operand operation: after the whole line its buffer holds the operation's function of what
    the three operands hold after the whole line. -/
theorem stage_ternary {τ : Topo} {sig : RefSig} {Val : EltTy → Type} {ops : List (HloOp τ sig Val)} {outs : List (Ref sig .tc)}
    (h : WritesAre ops outs) (k : Nat) (c a b y : Ref sig .tc)
    (f : c.ty.Contents Val → a.ty.Contents Val → b.ty.Contents Val → y.ty.Contents Val) {hc ha hb hy}
    (hk : ops[k]? = some (ternary c a b y f hc ha hb hy)) (hy' : y ∉ outs.drop (k + 1)) (hc' : c ∉ outs.drop k)
    (ha' : a ∉ outs.drop k) (hb' : b ∉ outs.drop k) (V : Valuation τ sig Val) :
    after ops V (Proc.devRef .tc y)
      = f (after ops V (Proc.devRef .tc c)) (after ops V (Proc.devRef .tc a)) (after ops V (Proc.devRef .tc b)) := by
  rw [after_eq_take h (k + 1) V hy', after_eq_take h k V hc', after_eq_take h k V ha', after_eq_take h k V hb',
    after_take_succ hk]
  exact ternary_result ..

/-- The stage of a two-operand operation of an inlined function: its values are carried to and from the buffers along
    equations between types that are reflexivity, so its stage reads like any other two-operand operation's. -/
theorem stage_tbinary {τ : Topo} {sig : RefSig} {Val : EltTy → Type} {ops : List (HloOp τ sig Val)} {outs : List (Ref sig .tc)}
    (h : WritesAre ops outs) (k : Nat) (a b y : Ref sig .tc) {ha2 ha3 hb2 hb3 hy2 hy3}
    (f : a.ty.Contents Val → b.ty.Contents Val → y.ty.Contents Val)
    (hk : ops[k]? = some (TRef.binary (⟨a, rfl, ha2, ha3⟩ : TRef sig a.ty) (⟨b, rfl, hb2, hb3⟩ : TRef sig b.ty)
      (⟨y, rfl, hy2, hy3⟩ : TRef sig y.ty) f))
    (hy' : y ∉ outs.drop (k + 1)) (ha' : a ∉ outs.drop k) (hb' : b ∉ outs.drop k) (V : Valuation τ sig Val) :
    after ops V (Proc.devRef .tc y) = f (after ops V (Proc.devRef .tc a)) (after ops V (Proc.devRef .tc b)) :=
  stage_binary h k a b y f hk hy' ha' hb' V

end Cert.LibLine
-- ==== Proof.LibLineCall.lean ====
/- One more stage for a straight line of host operations in single-assignment form: a THREE-operand operation of an
   inlined function (a select called through jnp.where), whose values are carried to and from its buffers along
   equations between types that are reflexivity for a literal buffer. What the written buffer holds after the whole
   line is the operation's function of what its three operands hold after the whole line. General; no program is
   imported. -/
import proofs.«116687_j74337293959431_1_alg».proof.Proof.LibLineTernary

namespace Cert.LibLine

open Idealize.ShloMosaic Idealize.ShloMosaic.TcCoe Idealize.ShloMosaic.StableHlo

/-- The stage of a three-operand operation of an inlined function: its values are carried to and from the buffers along
    equations between types that are reflexivity, so its stage reads like any other three-operand operation's. -/
theorem stage_tternary {τ : Topo} {sig : RefSig} {Val : EltTy → Type} {ops : List (HloOp τ sig Val)} {outs : List (Ref sig .tc)}
    (h : WritesAre ops outs) (k : Nat) (c a b y : Ref sig .tc) {hc2 hc3 ha2 ha3 hb2 hb3 hy2 hy3}
    (f : c.ty.Contents Val → a.ty.Contents Val → b.ty.Contents Val → y.ty.Contents Val)
    (hk : ops[k]? = some (TRef.ternary (⟨c, rfl, hc2, hc3⟩ : TRef sig c.ty) (⟨a, rfl, ha2, ha3⟩ : TRef sig a.ty)
      (⟨b, rfl, hb2, hb3⟩ : TRef sig b.ty) (⟨y, rfl, hy2, hy3⟩ : TRef sig y.ty) f))
    (hy' : y ∉ outs.drop (k + 1)) (hc' : c ∉ outs.drop k) (ha' : a ∉ outs.drop k) (hb' : b ∉ outs.drop k)
    (V : Valuation τ sig Val) :
    after ops V (Proc.devRef .tc y)
      = f (after ops V (Proc.devRef .tc c)) (after ops V (Proc.devRef .tc a)) (after ops V (Proc.devRef .tc b)) :=
  stage_ternary h k c a b y f hk hy' hc' ha' hb' V

end Cert.LibLine
-- ==== Proof.LibLineCallUnary.lean ====
/- One more stage for a straight line of host operations in single-assignment form: a ONE-operand operation of an
   inlined function (a convert or a broadcast inside a function jax outlined, such as jnp.where), whose values are carried
   to and from its buffers along equations between types that are reflexivity for a literal buffer. What the written buffer
   holds after the whole line is the operation's function of what its operand holds after the whole line. General; no
   program is imported. -/
import proofs.«116687_j74337293959431_1_alg».proof.Proof.LibLine

namespace Cert.LibLine

open Idealize.ShloMosaic Idealize.ShloMosaic.TcCoe Idealize.ShloMosaic.StableHlo

/-- The stage of a one-operand operation of an inlined function: its values are carried to and from the buffers along
    equations between types that are reflexivity, so its stage reads like any other one-operand operation's. -/
theorem stage_tunary {τ : Topo} {sig : RefSig} {Val : EltTy → Type} {ops : List (HloOp τ sig Val)} {outs : List (Ref sig .tc)}
    (h : WritesAre ops outs) (k : Nat) (x y : Ref sig .tc) {hx2 hx3 hy2 hy3}
    (f : x.ty.Contents Val → y.ty.Contents Val)
    (hk : ops[k]? = some (TRef.unary (⟨x, rfl, hx2, hx3⟩ : TRef sig x.ty) (⟨y, rfl, hy2, hy3⟩ : TRef sig y.ty) f))
    (hy' : y ∉ outs.drop (k + 1)) (hx' : x ∉ outs.drop k) (V : Valuation τ sig Val) :
    after ops V (Proc.devRef .tc y) = f (after ops V (Proc.devRef .tc x)) :=
  stage_unary h k x y f hk hy' hx' V

end Cert.LibLine
-- ==== Proof.Chain.lean ====
/-
  What the tracked buffers of the idealized kernel hold at each segment boundary, in the reference's own words.

  The program is eight pipelined regions among stretches of host operations, and the buffer contents at the segment
  boundaries are a fold from the launch memory.  Walking that fold forward: the host prefix computes, from the edge list
  alone, the two index vectors (sources and targets, with the self-loops appended) and the edge weights; each matrix
  product region leaves the whole product of the array it finds by its weight matrix; each host stretch gathers rows of
  that product by source, scales them by the edge weights and adds them up by target — the same operations, in the same
  order, as the reference's — and reshapes the bias vector into a row; each bias region adds that row and (in the three
  hidden layers) takes the maximum with zero.  A buffer that a segment does not write keeps what it held.  So at every
  boundary each tracked buffer holds exactly the reference's stage of the same name of the ten arguments, and the result
  buffer ends holding the reference's result.
-/
import proofs.«116687_j74337293959431_1_alg».proof.Proof.Gen.KernelIdeal.Frame
import proofs.«116687_j74337293959431_1_alg».proof.Proof.Region0
import proofs.«116687_j74337293959431_1_alg».proof.Proof.Region1
import proofs.«116687_j74337293959431_1_alg».proof.Proof.Region2
import proofs.«116687_j74337293959431_1_alg».proof.Proof.Region3
import proofs.«116687_j74337293959431_1_alg».proof.Proof.Region4
import proofs.«116687_j74337293959431_1_alg».proof.Proof.Region5
import proofs.«116687_j74337293959431_1_alg».proof.Proof.Region6
import proofs.«116687_j74337293959431_1_alg».proof.Proof.Region7
import proofs.«116687_j74337293959431_1_alg».proof.Proof.RefStages
import Idealize.ShloMosaic.Lib.StableHlo.Run
import proofs.«116687_j74337293959431_1_alg».proof.Proof.LibLineCall
import proofs.«116687_j74337293959431_1_alg».proof.Proof.LibLineCallUnary

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.ReferenceIdeal.Read Cert.Spec

/-- No operation of the named stretch writes the buffer at hand: each operation writes one buffer, another one. -/
macro "not_written " ops:ident : tactic => `(tactic|
  (simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
   repeat' apply And.intro
   all_goals exact StableHlo.devRef_ne_of_ne (by decide)))

variable (m : (ℓ : Loc nD τ sig) → Buf (Elt Ideal) ℓ) (ρ : Dev nD → PrngReg) (c : Dev nD)

/-! ## The host prefix: index vectors and edge weights from the edge list -/

theorem w3_v5 : W3 m ρ c (Proc.devRef .tc main_v5) = val_main_v5 (F := Ideal) (m ((c : Thread nD τ).loc main_arg1)) := by
  show StableHlo.after hostOps0_2 (StableHlo.after hostOps0_1 (StableHlo.after hostOps0 (W0 m ρ c))) (Proc.devRef .tc main_v5) = _
  dsimp only [hostOps0_2, hostOps0_1, hostOps0]
  after_results
  rfl

theorem w3_v6 : W3 m ρ c (Proc.devRef .tc main_v6) = val_main_v6 (F := Ideal) (m ((c : Thread nD τ).loc main_arg1)) := by
  show StableHlo.after hostOps0_2 (StableHlo.after hostOps0_1 (StableHlo.after hostOps0 (W0 m ρ c))) (Proc.devRef .tc main_v6) = _
  dsimp only [hostOps0_2, hostOps0_1, hostOps0]
  after_results
  rfl

/-- After the first stretch: the index vectors, the comparison of the degrees with zero, their reciprocal square
    roots, and the zero that replaces a root where the degree is not positive. -/
theorem w1_v5 : W1 m ρ c (Proc.devRef .tc main_v5) = val_main_v5 (F := Ideal) (m ((c : Thread nD τ).loc main_arg1)) := by
  show StableHlo.after hostOps0 (W0 m ρ c) (Proc.devRef .tc main_v5) = _
  dsimp only [hostOps0]
  after_results_simp
  rfl

theorem w1_v6 : W1 m ρ c (Proc.devRef .tc main_v6) = val_main_v6 (F := Ideal) (m ((c : Thread nD τ).loc main_arg1)) := by
  show StableHlo.after hostOps0 (W0 m ρ c) (Proc.devRef .tc main_v6) = _
  dsimp only [hostOps0]
  after_results_simp
  rfl

theorem w1_v12 : W1 m ρ c (Proc.devRef .tc main_v12) = val_main_v12 (F := Ideal) (m ((c : Thread nD τ).loc main_arg1)) := by
  show StableHlo.after hostOps0 (W0 m ρ c) (Proc.devRef .tc main_v12) = _
  dsimp only [hostOps0]
  after_results_simp
  rfl

theorem w1_v13 : W1 m ρ c (Proc.devRef .tc main_v13) = val_main_v13 (F := Ideal) (m ((c : Thread nD τ).loc main_arg1)) := by
  show StableHlo.after hostOps0 (W0 m ρ c) (Proc.devRef .tc main_v13) = _
  dsimp only [hostOps0]
  after_results_simp
  rfl

theorem w1_cst2 : W1 m ρ c (Proc.devRef .tc main_cst_2) = val_main_cst_2 (F := Ideal) := by
  show StableHlo.after hostOps0 (W0 m ρ c) (Proc.devRef .tc main_cst_2) = _
  dsimp only [hostOps0]
  after_results_simp
  rfl

/-- The inlined selection, from contents that hold the comparison, the roots and the zero. -/
theorem select_stage (V : Valuation τ sig (Elt Ideal))
    (h12 : V (Proc.devRef .tc main_v12) = val_main_v12 (F := Ideal) (m ((c : Thread nD τ).loc main_arg1)))
    (h13 : V (Proc.devRef .tc main_v13) = val_main_v13 (F := Ideal) (m ((c : Thread nD τ).loc main_arg1)))
    (hc : V (Proc.devRef .tc main_cst_2) = val_main_cst_2 (F := Ideal)) :
    StableHlo.after hostOps0_1 V (Proc.devRef .tc main_v14) = val_main_v14 (F := Ideal) (m ((c : Thread nD τ).loc main_arg1)) := by
  have hW : Cert.LibLine.WritesAre (hostOps0_1 (F := Ideal)) [main_call0_v0, main_call0_v1, main_v14] :=
    .cons (StableHlo.unary_writes ..) (.cons (StableHlo.unary_writes ..) (.cons (StableHlo.ternary_writes ..) .nil))
  have s2 := Cert.LibLine.stage_tternary hW 2 main_v12 main_v13 main_call0_v1 main_v14 select rfl
    (by decide) (by decide) (by decide) (by decide) V
  have s1 := Cert.LibLine.stage_tunary hW 1 main_call0_v0 main_call0_v1 (broadcastInDim S100000 ![] bcast_S_S100000) rfl
    (by decide) (by decide) V
  have s0 := Cert.LibLine.stage_tunary hW 0 main_cst_2 main_call0_v0 id rfl (by decide) (by decide) V
  have k12 := Cert.LibLine.after_of_writesAre hW V (r := main_v12) (by decide)
  have k13 := Cert.LibLine.after_of_writesAre hW V (r := main_v13) (by decide)
  have kc := Cert.LibLine.after_of_writesAre hW V (r := main_cst_2) (by decide)
  rw [s2, s1, s0, k12, k13, kc, h12, h13, hc]
  rfl

theorem w2_v14 : W2 m ρ c (Proc.devRef .tc main_v14) = val_main_v14 (F := Ideal) (m ((c : Thread nD τ).loc main_arg1)) :=
  select_stage m c (W1 m ρ c) (w1_v12 m ρ c) (w1_v13 m ρ c) (w1_cst2 m ρ c)

theorem w2_v5 : W2 m ρ c (Proc.devRef .tc main_v5) = val_main_v5 (F := Ideal) (m ((c : Thread nD τ).loc main_arg1)) :=
  (StableHlo.after_of_forall_not_mem (b := Proc.devRef .tc main_v5) _ _ (List.forall_iff_forall_mem.mp (by not_written hostOps0_1))).trans (w1_v5 m ρ c)

theorem w2_v6 : W2 m ρ c (Proc.devRef .tc main_v6) = val_main_v6 (F := Ideal) (m ((c : Thread nD τ).loc main_arg1)) :=
  (StableHlo.after_of_forall_not_mem (b := Proc.devRef .tc main_v6) _ _ (List.forall_iff_forall_mem.mp (by not_written hostOps0_1))).trans (w1_v6 m ρ c)

/-- The edge weights, from contents that hold the per-node factors and the two index vectors. -/
theorem weights_stage (V : Valuation τ sig (Elt Ideal))
    (h14 : V (Proc.devRef .tc main_v14) = val_main_v14 (F := Ideal) (m ((c : Thread nD τ).loc main_arg1)))
    (h5 : V (Proc.devRef .tc main_v5) = val_main_v5 (F := Ideal) (m ((c : Thread nD τ).loc main_arg1)))
    (h6 : V (Proc.devRef .tc main_v6) = val_main_v6 (F := Ideal) (m ((c : Thread nD τ).loc main_arg1))) :
    StableHlo.after hostOps0_2 V (Proc.devRef .tc main_v29) = val_main_v29 (F := Ideal) (m ((c : Thread nD τ).loc main_arg1)) := by
  dsimp only [hostOps0_2]
  after_results_simp
  rw [h14, h5, h6]
  rfl

theorem w3_v29 : W3 m ρ c (Proc.devRef .tc main_v29) = val_main_v29 (F := Ideal) (m ((c : Thread nD τ).loc main_arg1)) :=
  weights_stage m c (W2 m ρ c) (w2_v14 m ρ c) (w2_v5 m ρ c) (w2_v6 m ρ c)

/-! ## The arguments, where a segment reads them -/

theorem w3_arg0 : W3 m ρ c (Proc.devRef .tc main_arg0) = (m ((c : Thread nD τ).loc main_arg0)) :=
  ((StableHlo.after_of_forall_not_mem (b := Proc.devRef .tc main_arg0) _ _ (List.forall_iff_forall_mem.mp (by not_written hostOps0_2))).trans ((StableHlo.after_of_forall_not_mem (b := Proc.devRef .tc main_arg0) _ _ (List.forall_iff_forall_mem.mp (by not_written hostOps0_1))).trans (StableHlo.after_of_forall_not_mem (b := Proc.devRef .tc main_arg0) _ _ (List.forall_iff_forall_mem.mp (by not_written hostOps0))))).trans rfl

theorem w3_arg2 : W3 m ρ c (Proc.devRef .tc main_arg2) = (m ((c : Thread nD τ).loc main_arg2)) :=
  ((StableHlo.after_of_forall_not_mem (b := Proc.devRef .tc main_arg2) _ _ (List.forall_iff_forall_mem.mp (by not_written hostOps0_2))).trans ((StableHlo.after_of_forall_not_mem (b := Proc.devRef .tc main_arg2) _ _ (List.forall_iff_forall_mem.mp (by not_written hostOps0_1))).trans (StableHlo.after_of_forall_not_mem (b := Proc.devRef .tc main_arg2) _ _ (List.forall_iff_forall_mem.mp (by not_written hostOps0))))).trans rfl

theorem w4_arg3 : W4 m ρ c (Proc.devRef .tc main_arg3) = (m ((c : Thread nD τ).loc main_arg3)) :=
  ((W4_of_ne m ρ c main_arg3 (by decide)).trans ((StableHlo.after_of_forall_not_mem (b := Proc.devRef .tc main_arg3) _ _ (List.forall_iff_forall_mem.mp (by not_written hostOps0_2))).trans ((StableHlo.after_of_forall_not_mem (b := Proc.devRef .tc main_arg3) _ _ (List.forall_iff_forall_mem.mp (by not_written hostOps0_1))).trans (StableHlo.after_of_forall_not_mem (b := Proc.devRef .tc main_arg3) _ _ (List.forall_iff_forall_mem.mp (by not_written hostOps0)))))).trans rfl

theorem w6_arg4 : W6 m ρ c (Proc.devRef .tc main_arg4) = (m ((c : Thread nD τ).loc main_arg4)) :=
  ((W6_of_ne m ρ c main_arg4 (by decide)).trans ((StableHlo.after_of_forall_not_mem (b := Proc.devRef .tc main_arg4) _ _ (List.forall_iff_forall_mem.mp (by not_written hostOps1))).trans ((W4_of_ne m ρ c main_arg4 (by decide)).trans ((StableHlo.after_of_forall_not_mem (b := Proc.devRef .tc main_arg4) _ _ (List.forall_iff_forall_mem.mp (by not_written hostOps0_2))).trans ((StableHlo.after_of_forall_not_mem (b := Proc.devRef .tc main_arg4) _ _ (List.forall_iff_forall_mem.mp (by not_written hostOps0_1))).trans (StableHlo.after_of_forall_not_mem (b := Proc.devRef .tc main_arg4) _ _ (List.forall_iff_forall_mem.mp (by not_written hostOps0)))))))).trans rfl

theorem w7_arg5 : W7 m ρ c (Proc.devRef .tc main_arg5) = (m ((c : Thread nD τ).loc main_arg5)) :=
  ((W7_of_ne m ρ c main_arg5 (by decide)).trans ((W6_of_ne m ρ c main_arg5 (by decide)).trans ((StableHlo.after_of_forall_not_mem (b := Proc.devRef .tc main_arg5) _ _ (List.forall_iff_forall_mem.mp (by not_written hostOps1))).trans ((W4_of_ne m ρ c main_arg5 (by decide)).trans ((StableHlo.after_of_forall_not_mem (b := Proc.devRef .tc main_arg5) _ _ (List.forall_iff_forall_mem.mp (by not_written hostOps0_2))).trans ((StableHlo.after_of_forall_not_mem (b := Proc.devRef .tc main_arg5) _ _ (List.forall_iff_forall_mem.mp (by not_written hostOps0_1))).trans (StableHlo.after_of_forall_not_mem (b := Proc.devRef .tc main_arg5) _ _ (List.forall_iff_forall_mem.mp (by not_written hostOps0))))))))).trans rfl

theorem w9_arg6 : W9 m ρ c (Proc.devRef .tc main_arg6) = (m ((c : Thread nD τ).loc main_arg6)) :=
  ((W9_of_ne m ρ c main_arg6 (by decide)).trans ((StableHlo.after_of_forall_not_mem (b := Proc.devRef .tc main_arg6) _ _ (List.forall_iff_forall_mem.mp (by not_written hostOps3))).trans ((W7_of_ne m ρ c main_arg6 (by decide)).trans ((W6_of_ne m ρ c main_arg6 (by decide)).trans ((StableHlo.after_of_forall_not_mem (b := Proc.devRef .tc main_arg6) _ _ (List.forall_iff_forall_mem.mp (by not_written hostOps1))).trans ((W4_of_ne m ρ c main_arg6 (by decide)).trans ((StableHlo.after_of_forall_not_mem (b := Proc.devRef .tc main_arg6) _ _ (List.forall_iff_forall_mem.mp (by not_written hostOps0_2))).trans ((StableHlo.after_of_forall_not_mem (b := Proc.devRef .tc main_arg6) _ _ (List.forall_iff_forall_mem.mp (by not_written hostOps0_1))).trans (StableHlo.after_of_forall_not_mem (b := Proc.devRef .tc main_arg6) _ _ (List.forall_iff_forall_mem.mp (by not_written hostOps0))))))))))).trans rfl

theorem w10_arg7 : W10 m ρ c (Proc.devRef .tc main_arg7) = (m ((c : Thread nD τ).loc main_arg7)) :=
  ((W10_of_ne m ρ c main_arg7 (by decide)).trans ((W9_of_ne m ρ c main_arg7 (by decide)).trans ((StableHlo.after_of_forall_not_mem (b := Proc.devRef .tc main_arg7) _ _ (List.forall_iff_forall_mem.mp (by not_written hostOps3))).trans ((W7_of_ne m ρ c main_arg7 (by decide)).trans ((W6_of_ne m ρ c main_arg7 (by decide)).trans ((StableHlo.after_of_forall_not_mem (b := Proc.devRef .tc main_arg7) _ _ (List.forall_iff_forall_mem.mp (by not_written hostOps1))).trans ((W4_of_ne m ρ c main_arg7 (by decide)).trans ((StableHlo.after_of_forall_not_mem (b := Proc.devRef .tc main_arg7) _ _ (List.forall_iff_forall_mem.mp (by not_written hostOps0_2))).trans ((StableHlo.after_of_forall_not_mem (b := Proc.devRef .tc main_arg7) _ _ (List.forall_iff_forall_mem.mp (by not_written hostOps0_1))).trans (StableHlo.after_of_forall_not_mem (b := Proc.devRef .tc main_arg7) _ _ (List.forall_iff_forall_mem.mp (by not_written hostOps0)))))))))))).trans rfl

theorem w12_arg8 : W12 m ρ c (Proc.devRef .tc main_arg8) = (m ((c : Thread nD τ).loc main_arg8)) :=
  ((W12_of_ne m ρ c main_arg8 (by decide)).trans ((StableHlo.after_of_forall_not_mem (b := Proc.devRef .tc main_arg8) _ _ (List.forall_iff_forall_mem.mp (by not_written hostOps5))).trans ((W10_of_ne m ρ c main_arg8 (by decide)).trans ((W9_of_ne m ρ c main_arg8 (by decide)).trans ((StableHlo.after_of_forall_not_mem (b := Proc.devRef .tc main_arg8) _ _ (List.forall_iff_forall_mem.mp (by not_written hostOps3))).trans ((W7_of_ne m ρ c main_arg8 (by decide)).trans ((W6_of_ne m ρ c main_arg8 (by decide)).trans ((StableHlo.after_of_forall_not_mem (b := Proc.devRef .tc main_arg8) _ _ (List.forall_iff_forall_mem.mp (by not_written hostOps1))).trans ((W4_of_ne m ρ c main_arg8 (by decide)).trans ((StableHlo.after_of_forall_not_mem (b := Proc.devRef .tc main_arg8) _ _ (List.forall_iff_forall_mem.mp (by not_written hostOps0_2))).trans ((StableHlo.after_of_forall_not_mem (b := Proc.devRef .tc main_arg8) _ _ (List.forall_iff_forall_mem.mp (by not_written hostOps0_1))).trans (StableHlo.after_of_forall_not_mem (b := Proc.devRef .tc main_arg8) _ _ (List.forall_iff_forall_mem.mp (by not_written hostOps0)))))))))))))).trans rfl

theorem w13_arg9 : W13 m ρ c (Proc.devRef .tc main_arg9) = (m ((c : Thread nD τ).loc main_arg9)) :=
  ((W13_of_ne m ρ c main_arg9 (by decide)).trans ((W12_of_ne m ρ c main_arg9 (by decide)).trans ((StableHlo.after_of_forall_not_mem (b := Proc.devRef .tc main_arg9) _ _ (List.forall_iff_forall_mem.mp (by not_written hostOps5))).trans ((W10_of_ne m ρ c main_arg9 (by decide)).trans ((W9_of_ne m ρ c main_arg9 (by decide)).trans ((StableHlo.after_of_forall_not_mem (b := Proc.devRef .tc main_arg9) _ _ (List.forall_iff_forall_mem.mp (by not_written hostOps3))).trans ((W7_of_ne m ρ c main_arg9 (by decide)).trans ((W6_of_ne m ρ c main_arg9 (by decide)).trans ((StableHlo.after_of_forall_not_mem (b := Proc.devRef .tc main_arg9) _ _ (List.forall_iff_forall_mem.mp (by not_written hostOps1))).trans ((W4_of_ne m ρ c main_arg9 (by decide)).trans ((StableHlo.after_of_forall_not_mem (b := Proc.devRef .tc main_arg9) _ _ (List.forall_iff_forall_mem.mp (by not_written hostOps0_2))).trans ((StableHlo.after_of_forall_not_mem (b := Proc.devRef .tc main_arg9) _ _ (List.forall_iff_forall_mem.mp (by not_written hostOps0_1))).trans (StableHlo.after_of_forall_not_mem (b := Proc.devRef .tc main_arg9) _ _ (List.forall_iff_forall_mem.mp (by not_written hostOps0))))))))))))))).trans rfl

/-! ## The index vectors and the edge weights, where a later stretch reads them -/

theorem w4_v5 : W4 m ρ c (Proc.devRef .tc main_v5) = val_main_v5 (F := Ideal) (m ((c : Thread nD τ).loc main_arg1)) :=
  (W4_of_ne m ρ c main_v5 (by decide)).trans (w3_v5 m ρ c)

theorem w7_v5 : W7 m ρ c (Proc.devRef .tc main_v5) = val_main_v5 (F := Ideal) (m ((c : Thread nD τ).loc main_arg1)) :=
  ((W7_of_ne m ρ c main_v5 (by decide)).trans ((W6_of_ne m ρ c main_v5 (by decide)).trans ((StableHlo.after_of_forall_not_mem (b := Proc.devRef .tc main_v5) _ _ (List.forall_iff_forall_mem.mp (by not_written hostOps1))).trans (W4_of_ne m ρ c main_v5 (by decide))))).trans (w3_v5 m ρ c)

theorem w10_v5 : W10 m ρ c (Proc.devRef .tc main_v5) = val_main_v5 (F := Ideal) (m ((c : Thread nD τ).loc main_arg1)) :=
  ((W10_of_ne m ρ c main_v5 (by decide)).trans ((W9_of_ne m ρ c main_v5 (by decide)).trans ((StableHlo.after_of_forall_not_mem (b := Proc.devRef .tc main_v5) _ _ (List.forall_iff_forall_mem.mp (by not_written hostOps3))).trans ((W7_of_ne m ρ c main_v5 (by decide)).trans ((W6_of_ne m ρ c main_v5 (by decide)).trans ((StableHlo.after_of_forall_not_mem (b := Proc.devRef .tc main_v5) _ _ (List.forall_iff_forall_mem.mp (by not_written hostOps1))).trans (W4_of_ne m ρ c main_v5 (by decide)))))))).trans (w3_v5 m ρ c)

theorem w4_v6 : W4 m ρ c (Proc.devRef .tc main_v6) = val_main_v6 (F := Ideal) (m ((c : Thread nD τ).loc main_arg1)) :=
  (W4_of_ne m ρ c main_v6 (by decide)).trans (w3_v6 m ρ c)

theorem w7_v6 : W7 m ρ c (Proc.devRef .tc main_v6) = val_main_v6 (F := Ideal) (m ((c : Thread nD τ).loc main_arg1)) :=
  ((W7_of_ne m ρ c main_v6 (by decide)).trans ((W6_of_ne m ρ c main_v6 (by decide)).trans ((StableHlo.after_of_forall_not_mem (b := Proc.devRef .tc main_v6) _ _ (List.forall_iff_forall_mem.mp (by not_written hostOps1))).trans (W4_of_ne m ρ c main_v6 (by decide))))).trans (w3_v6 m ρ c)

theorem w10_v6 : W10 m ρ c (Proc.devRef .tc main_v6) = val_main_v6 (F := Ideal) (m ((c : Thread nD τ).loc main_arg1)) :=
  ((W10_of_ne m ρ c main_v6 (by decide)).trans ((W9_of_ne m ρ c main_v6 (by decide)).trans ((StableHlo.after_of_forall_not_mem (b := Proc.devRef .tc main_v6) _ _ (List.forall_iff_forall_mem.mp (by not_written hostOps3))).trans ((W7_of_ne m ρ c main_v6 (by decide)).trans ((W6_of_ne m ρ c main_v6 (by decide)).trans ((StableHlo.after_of_forall_not_mem (b := Proc.devRef .tc main_v6) _ _ (List.forall_iff_forall_mem.mp (by not_written hostOps1))).trans (W4_of_ne m ρ c main_v6 (by decide)))))))).trans (w3_v6 m ρ c)

theorem w4_v29 : W4 m ρ c (Proc.devRef .tc main_v29) = val_main_v29 (F := Ideal) (m ((c : Thread nD τ).loc main_arg1)) :=
  (W4_of_ne m ρ c main_v29 (by decide)).trans (w3_v29 m ρ c)

theorem w7_v29 : W7 m ρ c (Proc.devRef .tc main_v29) = val_main_v29 (F := Ideal) (m ((c : Thread nD τ).loc main_arg1)) :=
  ((W7_of_ne m ρ c main_v29 (by decide)).trans ((W6_of_ne m ρ c main_v29 (by decide)).trans ((StableHlo.after_of_forall_not_mem (b := Proc.devRef .tc main_v29) _ _ (List.forall_iff_forall_mem.mp (by not_written hostOps1))).trans (W4_of_ne m ρ c main_v29 (by decide))))).trans (w3_v29 m ρ c)

theorem w10_v29 : W10 m ρ c (Proc.devRef .tc main_v29) = val_main_v29 (F := Ideal) (m ((c : Thread nD τ).loc main_arg1)) :=
  ((W10_of_ne m ρ c main_v29 (by decide)).trans ((W9_of_ne m ρ c main_v29 (by decide)).trans ((StableHlo.after_of_forall_not_mem (b := Proc.devRef .tc main_v29) _ _ (List.forall_iff_forall_mem.mp (by not_written hostOps3))).trans ((W7_of_ne m ρ c main_v29 (by decide)).trans ((W6_of_ne m ρ c main_v29 (by decide)).trans ((StableHlo.after_of_forall_not_mem (b := Proc.devRef .tc main_v29) _ _ (List.forall_iff_forall_mem.mp (by not_written hostOps1))).trans (W4_of_ne m ρ c main_v29 (by decide)))))))).trans (w3_v29 m ρ c)

/-! ## Layer 1 -/

/-- Region 0 leaves the product of the features by the first weight matrix. -/
theorem w4_v30 : W4 m ρ c (Proc.devRef .tc main_v30) = val_main_v30 (F := Ideal) (m ((c : Thread nD τ).loc main_arg0)) (m ((c : Thread nD τ).loc main_arg2)) :=
  (W4_arr m ρ c 2).trans ((Region0.final (V3 m ρ) c).trans
    ((congrArg₂ prod128 (w3_arg0 m ρ c) (w3_arg2 m ρ c)).trans (Cert.ReferenceIdeal.Stages.v30_eq _ _).symm))

set_option maxHeartbeats 4000000 in
/-- The stretch after it gathers, scales and adds up: the reference's aggregate. -/
theorem w5_v43 : W5 m ρ c (Proc.devRef .tc main_v43) = val_main_v43 (F := Ideal) (m ((c : Thread nD τ).loc main_arg0)) (m ((c : Thread nD τ).loc main_arg1)) (m ((c : Thread nD τ).loc main_arg2)) := by
  show StableHlo.after hostOps1 (W4 m ρ c) (Proc.devRef .tc main_v43) = _
  dsimp only [hostOps1]
  after_results_simp
  rw [w4_v5 m ρ c, w4_v6 m ρ c, w4_v29 m ρ c, w4_v30 m ρ c]
  rfl

/-- … and reshapes the bias into a row. -/
theorem w5_v44 : W5 m ρ c (Proc.devRef .tc main_v44) = val_main_v44 (F := Ideal) (m ((c : Thread nD τ).loc main_arg3)) := by
  show StableHlo.after hostOps1 (W4 m ρ c) (Proc.devRef .tc main_v44) = _
  dsimp only [hostOps1]
  after_results
  rw [w4_arg3 m ρ c]
  exact (Cert.ReferenceIdeal.Stages.v44_row _ _).symm

/-- Region 1 adds the bias row and takes the maximum with zero. -/
theorem w6_v45 : W6 m ρ c (Proc.devRef .tc main_v45) = val_main_v47 (F := Ideal) (m ((c : Thread nD τ).loc main_arg0)) (m ((c : Thread nD τ).loc main_arg1)) (m ((c : Thread nD τ).loc main_arg2)) (m ((c : Thread nD τ).loc main_arg3)) :=
  (W6_arr m ρ c 2).trans ((Region1.final (V5 m ρ) c).trans
    ((congrArg₂ biasRelu (w5_v43 m ρ c) (w5_v44 m ρ c)).trans (Cert.ReferenceIdeal.Stages.v47_eq _ _ _ _).symm))

/-! ## Layer 2 -/

theorem w7_v46 : W7 m ρ c (Proc.devRef .tc main_v46) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W7_arr m ρ c 2).trans ((Region2.final (V6 m ρ) c).trans
    ((congrArg₂ prod128 (w6_v45 m ρ c) (w6_arg4 m ρ c)).trans (Cert.ReferenceIdeal.Stages.v48_eq _ _ _ _ _).symm))

set_option maxHeartbeats 4000000 in
theorem w8_v59 : W8 m ρ c (Proc.devRef .tc main_v59) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W7 m ρ c) (Proc.devRef .tc main_v59) = _
  dsimp only [hostOps3]
  after_results_simp
  rw [w7_v5 m ρ c, w7_v6 m ρ c, w7_v29 m ρ c, w7_v46 m ρ c]
  rfl

theorem w8_v60 : W8 m ρ c (Proc.devRef .tc main_v60) = val_main_v62 (F := Ideal) (m ((c : Thread nD τ).loc main_arg5)) := by
  show StableHlo.after hostOps3 (W7 m ρ c) (Proc.devRef .tc main_v60) = _
  dsimp only [hostOps3]
  after_results
  rw [w7_arg5 m ρ c]
  exact (Cert.ReferenceIdeal.Stages.v62_row _ _).symm

theorem w9_v61 : W9 m ρ c (Proc.devRef .tc main_v61) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans ((Region3.final (V8 m ρ) c).trans
    ((congrArg₂ biasRelu (w8_v59 m ρ c) (w8_v60 m ρ c)).trans (Cert.ReferenceIdeal.Stages.v65_eq _ _ _ _ _ _).symm))

/-! ## Layer 3 -/

theorem w10_v62 : W10 m ρ c (Proc.devRef .tc main_v62) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W10_arr m ρ c 2).trans ((Region4.final (V9 m ρ) c).trans
    ((congrArg₂ prod128 (w9_v61 m ρ c) (w9_arg6 m ρ c)).trans (Cert.ReferenceIdeal.Stages.v66_eq _ _ _ _ _ _ _).symm))

set_option maxHeartbeats 4000000 in
theorem w11_v75 : W11 m ρ c (Proc.devRef .tc main_v75) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W10 m ρ c) (Proc.devRef .tc main_v75) = _
  dsimp only [hostOps5]
  after_results_simp
  rw [w10_v5 m ρ c, w10_v6 m ρ c, w10_v29 m ρ c, w10_v62 m ρ c]
  rfl

theorem w11_v76 : W11 m ρ c (Proc.devRef .tc main_v76) = val_main_v80 (F := Ideal) (m ((c : Thread nD τ).loc main_arg7)) := by
  show StableHlo.after hostOps5 (W10 m ρ c) (Proc.devRef .tc main_v76) = _
  dsimp only [hostOps5]
  after_results
  rw [w10_arg7 m ρ c]
  exact (Cert.ReferenceIdeal.Stages.v80_row _ _).symm

theorem w12_v77 : W12 m ρ c (Proc.devRef .tc main_v77) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W12_arr m ρ c 2).trans ((Region5.final (V11 m ρ) c).trans
    ((congrArg₂ biasRelu (w11_v75 m ρ c) (w11_v76 m ρ c)).trans (Cert.ReferenceIdeal.Stages.v83_eq _ _ _ _ _ _ _ _).symm))

/-! ## The output layer -/

theorem w13_v78 : W13 m ρ c (Proc.devRef .tc main_v78) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W13_arr m ρ c 2).trans ((Region6.final (V12 m ρ) c).trans
    ((congrArg₂ prod64 (w12_v77 m ρ c) (w12_arg8 m ρ c)).trans (Cert.ReferenceIdeal.Stages.v84_eq _ _ _ _ _ _ _ _ _).symm))

theorem w14_v78 : W14 m ρ c (Proc.devRef .tc main_v78) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (StableHlo.after_of_forall_not_mem (b := Proc.devRef .tc main_v78) _ _ (List.forall_iff_forall_mem.mp (by not_written hostOps7))).trans (w13_v78 m ρ c)

theorem w14_v79 : W14 m ρ c (Proc.devRef .tc main_v79) = val_main_v85 (F := Ideal) (m ((c : Thread nD τ).loc main_arg9)) := by
  show StableHlo.after hostOps7 (W13 m ρ c) (Proc.devRef .tc main_v79) = _
  dsimp only [hostOps7]
  after_results
  rw [w13_arg9 m ρ c]
  exact (Cert.ReferenceIdeal.Stages.v85_row _ _).symm

/-- The result buffer ends holding the reference's result of the ten arguments. -/
theorem w15_v80 : W15 m ρ c (Proc.devRef .tc main_v80) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W15_arr m ρ c 2).trans ((Region7.final (V14 m ρ) c).trans
    ((congrArg₂ bias64 (w14_v78 m ρ c) (w14_v79 m ρ c)).trans (Cert.ReferenceIdeal.Stages.v87_eq _ _ _ _ _ _ _ _ _ _).symm))

end Cert.KernelIdeal.Chain

end
-- ==== Proof.lean ====
/-
  A three-layer graph convolution followed by a linear layer, on 100000 nodes with 128 features and 1600000 edges:
  the kernel against its reference, at the ideal values.

  Both programs first compute, from the edge list alone, the source and target index vectors with the self-loops
  appended and the symmetric edge weights `f(source) * f(target)`, where `f(v)` is `d(v)^(-1/2)` for a node of positive
  in-degree `d(v)` (self-loop counted) and zero otherwise.
  Each layer multiplies the node features by a weight matrix, gathers the product's rows by source, scales them by the
  edge weights, adds them up by target, adds a bias row and takes the maximum with zero; the output layer multiplies by a
  128 x 64 matrix and adds a bias row.

  The reference does all of this with host operations.  The kernel does the gathers, scalings and scatter-adds with
  the SAME host operations, in the same order and with the same literals, and replaces each matrix product and each
  bias (and maximum) by a pipelined region over 20 blocks of 5000 rows.  A region's block products are sums over the
  contracted coordinate into a zero accumulator, as the reference's `dot_general` is at the ideal values, and rounding the
  operands to bf16 is the identity there; a region's bias row is the bias vector reshaped, where the reference broadcasts
  it: the same entry at every column.  So each region leaves, block by block, exactly the whole-array stage the
  reference computes, and every buffer the two programs share by name holds the same extended reals: no algebraic law
  beyond "the same sum" is used, and the finiteness of the inputs is never needed.

  The three frames are the generated ones (the reference's is its generated run with the result dropped).  The ideal
  pass rewrote nothing, so the kernel's idealization is its own text read at the ideal values.
-/
import proofs.«116687_j74337293959431_1_alg».proof.Defs
import proofs.«116687_j74337293959431_1_alg».proof.Proof.Gen.Kernel
import proofs.«116687_j74337293959431_1_alg».proof.Proof.Gen.Kernel.Skeleton
import proofs.«116687_j74337293959431_1_alg».proof.Proof.Gen.Kernel.Launch
import proofs.«116687_j74337293959431_1_alg».proof.Proof.Gen.Kernel.Points
import proofs.«116687_j74337293959431_1_alg».proof.Proof.Gen.Kernel.Frame
import proofs.«116687_j74337293959431_1_alg».proof.Proof.Gen.KernelIdeal
import proofs.«116687_j74337293959431_1_alg».proof.Proof.Gen.KernelIdeal.Skeleton
import proofs.«116687_j74337293959431_1_alg».proof.Proof.Gen.KernelIdeal.Launch
import proofs.«116687_j74337293959431_1_alg».proof.Proof.Gen.KernelIdeal.Points
import proofs.«116687_j74337293959431_1_alg».proof.Proof.Gen.KernelIdeal.Frame
import proofs.«116687_j74337293959431_1_alg».proof.Proof.Gen.ReferenceIdeal
import proofs.«116687_j74337293959431_1_alg».proof.Proof.Gen.Pre_finite_inputs
import proofs.«116687_j74337293959431_1_alg».proof.Proof.RefRun
import proofs.«116687_j74337293959431_1_alg».proof.Proof.RefRead
import proofs.«116687_j74337293959431_1_alg».proof.Proof.KRun
import proofs.«116687_j74337293959431_1_alg».proof.Proof.Chain
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the reference's result stage of the ten arguments: the kernel by the walk through its
    segments, the reference by its own run, read from memories that agree on the arguments. -/
theorem algebraic : Cert.algebraic_KernelIdeal_ReferenceIdeal := by
  intro m ρ m' ρ' _ hagree
  refine ⟨fun c => Cert.ReferenceIdeal.Read.val_main_v87 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.w15_v80 m ρ c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v87_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
